-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x256x128 : Shape := ⟨4, ![8, 128, 256, 128]⟩
abbrev S32x128 : Shape := ⟨2, ![32, 128]⟩
abbrev S32 : Shape := ⟨1, ![32]⟩
abbrev S128x128 : Shape := ⟨2, ![128, 128]⟩
abbrev S128 : Shape := ⟨1, ![128]⟩
abbrev S_ : Shape := ⟨0, ![]⟩

class Facts : Prop where
  bcast_S_S8x128x256x128 : S_.BroadcastsInDim S8x128x256x128 (![] : Fin 0 → Fin S8x128x256x128.rank)
  reducesTo_S8x128x256x128_S_d0_1_2_3 : S8x128x256x128.ReducesTo [0, 1, 2, 3] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S32 .f32) (main_arg5 : FVec F S128x128 .f32) (main_arg6 : FVec F S128 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8x128x256x128 .f32) (main_arg1 : FVec F S32x128 .f32) (main_arg2 : FVec F S32 .f32) (main_arg3 : FVec F S32x128 .f32) (main_arg4 : FVec F S32 .f32) (main_arg5 : FVec F S128x128 .f32) (main_arg6 : FVec F S128 .f32) : IVec S_ 1 :=
  let main_v0 : FVec F S8x128x256x128 .f32 := Host.absf main_arg0
  let main_cst : FVec F S_ .f32 := constant S_ .f32 0x7F800000#32
  let main_v1 : FVec F S8x128x256x128 .f32 := broadcastInDim S8x128x256x128 ![] bcast_S_S8x128x256x128 main_cst
  let main_v2 : IVec S8x128x256x128 1 := cmpf .olt main_v0 main_v1
  let main_c : IVec S_ 1 := constantI S_ 1 1#1
  let main_v3 : IVec S_ 1 := (fun x v => Host.reduce IntOp.andi x v reducesTo_S8x128x256x128_S_d0_1_2_3 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x128 .f32 := Host.absf main_arg3
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg4 main_arg5 main_arg6 main_v13 main_v16
-- ==== Kernel.lean ====
abbrev S8x128x256x128 : Shape := ⟨4, ![8, 128, 256, 128]⟩
abbrev S32x128 : Shape := ⟨2, ![32, 128]⟩
abbrev S32 : Shape := ⟨1, ![32]⟩
abbrev S128x128 : Shape := ⟨2, ![128, 128]⟩
abbrev S128 : Shape := ⟨1, ![128]⟩
abbrev S128x32 : Shape := ⟨2, ![128, 32]⟩
abbrev S1x128x64x128 : Shape := ⟨4, ![1, 128, 64, 128]⟩
abbrev S1x64x64x128 : Shape := ⟨4, ![1, 64, 64, 128]⟩
abbrev S64x64x128 : Shape := ⟨3, ![64, 64, 128]⟩
abbrev S4096x128 : Shape := ⟨2, ![4096, 128]⟩
abbrev S4096x32 : Shape := ⟨2, ![4096, 32]⟩
abbrev S1x32 : Shape := ⟨2, ![1, 32]⟩
abbrev S64x64x32 : Shape := ⟨3, ![64, 64, 32]⟩
abbrev S1x128 : Shape := ⟨2, ![1, 128]⟩
abbrev S64x64x64 : Shape := ⟨3, ![64, 64, 64]⟩
abbrev S64x128 : Shape := ⟨2, ![64, 128]⟩
abbrev S64x1x128 : Shape := ⟨3, ![64, 1, 128]⟩

abbrev nBuf : Space → Nat
  | .hbm => 11
  | .vmem => 10
  | .smem => 0
  | _ => 0

abbrev bufTy : (tb : Table) → Fin (tcTables nBuf tb) → BufTy
  | .hbm, ⟨0, _⟩ => ⟨S8x128x256x128, .f32⟩
  | .hbm, ⟨1, _⟩ => ⟨S32x128, .f32⟩
  | .hbm, ⟨2, _⟩ => ⟨S32, .f32⟩
  | .hbm, ⟨3, _⟩ => ⟨S32x128, .f32⟩
  | .hbm, ⟨4, _⟩ => ⟨S32, .f32⟩
  | .hbm, ⟨5, _⟩ => ⟨S128x128, .f32⟩
  | .hbm, ⟨6, _⟩ => ⟨S128, .f32⟩
  | .hbm, ⟨7, _⟩ => ⟨S128x32, .f32⟩
  | .hbm, ⟨8, _⟩ => ⟨S128x32, .f32⟩
  | .hbm, ⟨9, _⟩ => ⟨S128x128, .f32⟩
  | .hbm, ⟨10, _⟩ => ⟨S8x128x256x128, .f32⟩
  | .local _ .vmem, ⟨0, _⟩ => ⟨S1x128x64x128, .f32⟩
  | .local _ .vmem, ⟨1, _⟩ => ⟨S1x128x64x128, .f32⟩
  | .local _ .vmem, ⟨2, _⟩ => ⟨S128x32, .f32⟩
  | .local _ .vmem, ⟨3, _⟩ => ⟨S32, .f32⟩
  | .local _ .vmem, ⟨4, _⟩ => ⟨S128x32, .f32⟩
  | .local _ .vmem, ⟨5, _⟩ => ⟨S32, .f32⟩
  | .local _ .vmem, ⟨6, _⟩ => ⟨S128x128, .f32⟩
  | .local _ .vmem, ⟨7, _⟩ => ⟨S128, .f32⟩
  | .local _ .vmem, ⟨8, _⟩ => ⟨S1x128x64x128, .f32⟩
  | .local _ .vmem, ⟨9, _⟩ => ⟨S1x128x64x128, .f32⟩
  | _, _ => ⟨S8x128x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  transposes_S32x128_S128x32_1_0 : S32x128.Transposes [1, 0] S128x32
  transposes_S128x128_S128x128_1_0 : S128x128.Transposes [1, 0] S128x128
  inb_S1x128x64x128_S1x64x64x128_0_0_0_0 : ∀ a, (![0, 0, 0, 0] : Fin 4 → Nat) a + S1x64x64x128.size a ≤ S1x128x64x128.size a
  h_S1x64x64x128 : 0 < S1x64x64x128.numel
  shapeCasts_S1x64x64x128_S64x64x128 : S1x64x64x128.ShapeCasts S64x64x128
  inb_S1x128x64x128_S1x64x64x128_0_64_0_0 : ∀ a, (![0, 64, 0, 0] : Fin 4 → Nat) a + S1x64x64x128.size a ≤ S1x128x64x128.size a
  transposes_S64x64x128_p1_0_2_S64x64x128 : S64x64x128.Transposes [1, 0, 2] S64x64x128
  shapeCasts_S64x64x128_S4096x128 : S64x64x128.ShapeCasts S4096x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32_S32_0 : ∀ a, (![0] : Fin 1 → Nat) a + S32.size a ≤ S32.size a
  h_S32 : 0 < S32.numel
  inb_S128_S128_0 : ∀ a, (![0] : Fin 1 → Nat) a + S128.size a ≤ S128.size a
  h_S128 : 0 < S128.numel
  shapeCasts_S32_S1x32 : S32.ShapeCasts S1x32
  broadcasts_S1x32_S4096x32 : S1x32.Broadcasts S4096x32
  shapeCasts_S4096x32_S64x64x32 : S4096x32.ShapeCasts S64x64x32
  shapeCasts_S128_S1x128 : S128.ShapeCasts S1x128
  broadcasts_S1x128_S4096x128 : S1x128.Broadcasts S4096x128
  shapeCasts_S4096x128_S64x64x128 : S4096x128.ShapeCasts S64x64x128
  concatenates_S64x64x64_S64x64x64_S64x64x128_d2 : Shape.Concatenates [S64x64x64, S64x64x64] S64x64x128 2
  reduces_S64x64x128_S64x128 : S64x64x128.Reduces [1] S64x128
  shapeCasts_S64x128_S64x1x128 : S64x128.ShapeCasts S64x1x128
  broadcasts_S64x1x128_S64x64x128 : S64x1x128.Broadcasts S64x64x128
  slices_S64x64x128_o0_0_0_S64x64x64 : S64x64x128.Slices ![0, 0, 0] S64x64x64
  slices_S64x64x128_o0_0_64_S64x64x64 : S64x64x128.Slices ![0, 0, 64] S64x64x64
  transposes_S64x64x64_p0_2_1_S64x64x64 : S64x64x64.Transposes [0, 2, 1] S64x64x64
  shapeCasts_S64x64x128_S1x64x64x128 : S64x64x128.ShapeCasts S1x64x64x128
  dot_S4096x128_S128x32_S4096x32_1_0_0_1_n_n_wf : DotDims.WF S4096x128 S128x32 S4096x32 [1] [0] [0] [1] [] []
  dot_S4096x128_S128x128_S4096x128_1_0_0_1_n_n_wf : DotDims.WF S4096x128 S128x128 S4096x128 [1] [0] [0] [1] [] []
  dot_S64x64x32_S64x64x32_S64x64x64_2_2_1_1_0_0_wf : DotDims.WF S64x64x32 S64x64x32 S64x64x64 [2] [2] [1] [1] [0] [0]
  dot_S64x64x64_S64x64x128_S64x64x128_2_1_1_2_0_0_wf : DotDims.WF S64x64x64 S64x64x128 S64x64x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64x128.size a ≤ S8x128x256x128.size a
  hwx0_0 : ∀ i : grid0.Coords, EltTy.bits .f32 = 32 ∨ (Rect.block (s := S8x128x256x128) S1x128x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x64x128.size a ≤ S8x128x256x128.size a
  hwx0_7 : ∀ i : grid0.Coords, EltTy.bits .f32 = 32 ∨ (Rect.block (s := S8x128x256x128) S1x128x64x128.size (cc0_transform_7 i) (hinb0_7 i)).WholeWords (EltTy.packing .f32)

variable [Facts₀]

def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S64x64x32_S64x64x32_S64x64x64_2_2_1_1_0_0 : DotDims S64x64x32 S64x64x32 S64x64x64 where
  lhsContracting := [2]
  rhsContracting := [2]
  lhsNonContracting := [1]
  rhsNonContracting := [1]
  lhsBatch := [0]
  rhsBatch := [0]
  wf := dot_S64x64x32_S64x64x32_S64x64x64_2_2_1_1_0_0_wf
def dot_S64x64x64_S64x64x128_S64x64x128_2_1_1_2_0_0 : DotDims S64x64x64 S64x64x128 S64x64x128 where
  lhsContracting := [2]
  rhsContracting := [1]
  lhsNonContracting := [1]
  rhsNonContracting := [2]
  lhsBatch := [0]
  rhsBatch := [0]
  wf := dot_S64x64x64_S64x64x128_S64x64x128_2_1_1_2_0_0_wf

abbrev win0_0 : Pipeline.Window sig grid0 :=
  Pipeline.Window.ofSpec (Memref.whole main_arg0) S1x128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x128x64x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x128x256x128 : Shape := ⟨4, ![8, 128, 256, 128]⟩
abbrev S32x128 : Shape := ⟨2, ![32, 128]⟩
abbrev S32 : Shape := ⟨1, ![32]⟩
abbrev S128x128 : Shape := ⟨2, ![128, 128]⟩
abbrev S128 : Shape := ⟨1, ![128]⟩
abbrev S8x64x256x128 : Shape := ⟨4, ![8, 64, 256, 128]⟩
abbrev S32x8x64x256 : Shape := ⟨4, ![32, 8, 64, 256]⟩
abbrev S8x256x32x64 : Shape := ⟨4, ![8, 256, 32, 64]⟩
abbrev S1x1x32x1 : Shape := ⟨4, ![1, 1, 32, 1]⟩
abbrev S128x8x64x256 : Shape := ⟨4, ![128, 8, 64, 256]⟩
abbrev S8x256x128x64 : Shape := ⟨4, ![8, 256, 128, 64]⟩
abbrev S1x1x128x1 : Shape := ⟨4, ![1, 1, 128, 1]⟩
abbrev S8x256x64x64 : Shape := ⟨4, ![8, 256, 64, 64]⟩
abbrev S_ : Shape := ⟨0, ![]⟩
abbrev S8x256x64 : Shape := ⟨3, ![8, 256, 64]⟩
abbrev S8x256x1x64 : Shape := ⟨4, ![8, 256, 1, 64]⟩

abbrev nBuf : Space → Nat
  | .hbm => 82
  | .vmem => 0
  | .smem => 0
  | _ => 0

abbrev bufTy : (tb : Table) → Fin (tcTables nBuf tb) → BufTy
  | .hbm, ⟨0, _⟩ => ⟨S8x128x256x128, .f32⟩
  | .hbm, ⟨1, _⟩ => ⟨S32x128, .f32⟩
  | .hbm, ⟨2, _⟩ => ⟨S32, .f32⟩
  | .hbm, ⟨3, _⟩ => ⟨S32x128, .f32⟩
  | .hbm, ⟨4, _⟩ => ⟨S32, .f32⟩
  | .hbm, ⟨5, _⟩ => ⟨S128x128, .f32⟩
  | .hbm, ⟨6, _⟩ => ⟨S128, .f32⟩
  | .hbm, ⟨7, _⟩ => ⟨S8x64x256x128, .f32⟩
  | .hbm, ⟨8, _⟩ => ⟨S8x64x256x128, .f32⟩
  | .hbm, ⟨9, _⟩ => ⟨S32x8x64x256, .f32⟩
  | .hbm, ⟨10, _⟩ => ⟨S8x256x32x64, .f32⟩
  | .hbm, ⟨11, _⟩ => ⟨S1x1x32x1, .f32⟩
  | .hbm, ⟨12, _⟩ => ⟨S8x256x32x64, .f32⟩
  | .hbm, ⟨13, _⟩ => ⟨S8x256x32x64, .f32⟩
  | .hbm, ⟨14, _⟩ => ⟨S32x8x64x256, .f32⟩
  | .hbm, ⟨15, _⟩ => ⟨S8x256x32x64, .f32⟩
  | .hbm, ⟨16, _⟩ => ⟨S1x1x32x1, .f32⟩
  | .hbm, ⟨17, _⟩ => ⟨S8x256x32x64, .f32⟩
  | .hbm, ⟨18, _⟩ => ⟨S8x256x32x64, .f32⟩
  | .hbm, ⟨19, _⟩ => ⟨S32x8x64x256, .f32⟩
  | .hbm, ⟨20, _⟩ => ⟨S8x256x32x64, .f32⟩
  | .hbm, ⟨21, _⟩ => ⟨S1x1x32x1, .f32⟩
  | .hbm, ⟨22, _⟩ => ⟨S8x256x32x64, .f32⟩
  | .hbm, ⟨23, _⟩ => ⟨S8x256x32x64, .f32⟩
  | .hbm, ⟨24, _⟩ => ⟨S32x8x64x256, .f32⟩
  | .hbm, ⟨25, _⟩ => ⟨S8x256x32x64, .f32⟩
  | .hbm, ⟨26, _⟩ => ⟨S1x1x32x1, .f32⟩
  | .hbm, ⟨27, _⟩ => ⟨S8x256x32x64, .f32⟩
  | .hbm, ⟨28, _⟩ => ⟨S8x256x32x64, .f32⟩
  | .hbm, ⟨29, _⟩ => ⟨S128x8x64x256, .f32⟩
  | .hbm, ⟨30, _⟩ => ⟨S8x256x128x64, .f32⟩
  | .hbm, ⟨31, _⟩ => ⟨S1x1x128x1, .f32⟩
  | .hbm, ⟨32, _⟩ => ⟨S8x256x128x64, .f32⟩
  | .hbm, ⟨33, _⟩ => ⟨S8x256x128x64, .f32⟩
  | .hbm, ⟨34, _⟩ => ⟨S128x8x64x256, .f32⟩
  | .hbm, ⟨35, _⟩ => ⟨S8x256x128x64, .f32⟩
  | .hbm, ⟨36, _⟩ => ⟨S1x1x128x1, .f32⟩
  | .hbm, ⟨37, _⟩ => ⟨S8x256x128x64, .f32⟩
  | .hbm, ⟨38, _⟩ => ⟨S8x256x128x64, .f32⟩
  | .hbm, ⟨39, _⟩ => ⟨S8x256x64x64, .f32⟩
  | .hbm, ⟨40, _⟩ => ⟨S8x256x64x64, .f32⟩
  | .hbm, ⟨41, _⟩ => ⟨S8x256x64x64, .f32⟩
  | .hbm, ⟨42, _⟩ => ⟨S8x256x64x64, .f32⟩
  | .hbm, ⟨43, _⟩ => ⟨S8x256x64x64, .f32⟩
  | .hbm, ⟨44, _⟩ => ⟨S8x256x64x64, .f32⟩
  | .hbm, ⟨45, _⟩ => ⟨S_, .f32⟩
  | .hbm, ⟨46, _⟩ => ⟨S8x256x64, .f32⟩
  | .hbm, ⟨47, _⟩ => ⟨S_, .f32⟩
  | .hbm, ⟨48, _⟩ => ⟨S8x256x64, .f32⟩
  | .hbm, ⟨49, _⟩ => ⟨S8x256x64, .f32⟩
  | .hbm, ⟨50, _⟩ => ⟨S8x256x1x64, .f32⟩
  | .hbm, ⟨51, _⟩ => ⟨S8x256x64x64, .f32⟩
  | .hbm, ⟨52, _⟩ => ⟨S8x256x64x64, .f32⟩
  | .hbm, ⟨53, _⟩ => ⟨S8x256x64x64, .f32⟩
  | .hbm, ⟨54, _⟩ => ⟨S_, .f32⟩
  | .hbm, ⟨55, _⟩ => ⟨S8x256x64, .f32⟩
  | .hbm, ⟨56, _⟩ => ⟨S8x256x1x64, .f32⟩
  | .hbm, ⟨57, _⟩ => ⟨S8x256x64x64, .f32⟩
  | .hbm, ⟨58, _⟩ => ⟨S8x256x64x64, .f32⟩
  | .hbm, ⟨59, _⟩ => ⟨S_, .f32⟩
  | .hbm, ⟨60, _⟩ => ⟨S8x256x64, .f32⟩
  | .hbm, ⟨61, _⟩ => ⟨S_, .f32⟩
  | .hbm, ⟨62, _⟩ => ⟨S8x256x64, .f32⟩
  | .hbm, ⟨63, _⟩ => ⟨S8x256x64, .f32⟩
  | .hbm, ⟨64, _⟩ => ⟨S8x256x1x64, .f32⟩
  | .hbm, ⟨65, _⟩ => ⟨S8x256x64x64, .f32⟩
  | .hbm, ⟨66, _⟩ => ⟨S8x256x64x64, .f32⟩
  | .hbm, ⟨67, _⟩ => ⟨S8x256x64x64, .f32⟩
  | .hbm, ⟨68, _⟩ => ⟨S_, .f32⟩
  | .hbm, ⟨69, _⟩ => ⟨S8x256x64, .f32⟩
  | .hbm, ⟨70, _⟩ => ⟨S8x256x1x64, .f32⟩
  | .hbm, ⟨71, _⟩ => ⟨S8x256x64x64, .f32⟩
  | .hbm, ⟨72, _⟩ => ⟨S8x256x64x64, .f32⟩
  | .hbm, ⟨73, _⟩ => ⟨S8x256x128x64, .f32⟩
  | .hbm, ⟨74, _⟩ => ⟨S8x256x128x64, .f32⟩
  | .hbm, ⟨75, _⟩ => ⟨S8x256x128x64, .f32⟩
  | .hbm, ⟨76, _⟩ => ⟨S8x256x128x64, .f32⟩
  | .hbm, ⟨77, _⟩ => ⟨S8x256x128x64, .f32⟩
  | .hbm, ⟨78, _⟩ => ⟨S8x256x128x64, .f32⟩
  | .hbm, ⟨79, _⟩ => ⟨S8x64x256x128, .f32⟩
  | .hbm, ⟨80, _⟩ => ⟨S8x64x256x128, .f32⟩
  | .hbm, ⟨81, _⟩ => ⟨S8x128x256x128, .f32⟩
  | _, _ => ⟨S8x128x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst : Ref sig .tc := ⟨.hbm, 45, rfl⟩
abbrev main_v38 : Ref sig .tc := ⟨.hbm, 46, rfl⟩
abbrev main_cst_0 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_1 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_2 : Ref sig .tc := ⟨.hbm, 59, rfl⟩
abbrev main_v49 : Ref sig .tc := ⟨.hbm, 60, rfl⟩
abbrev main_cst_3 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_4 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩

abbrev nD : Nat := 1
abbrev τ : Topo := Topo.v7x

variable {F : FTy → Type} [FloatOps F]

class Facts₀ : Prop where
  slices_S8x128x256x128_S8x64x256x128_0_0_0_0 : S8x128x256x128.Slices ![0, 0, 0, 0] S8x64x256x128
  slices_S8x128x256x128_S8x64x256x128_0_64_0_0 : S8x128x256x128.Slices ![0, 64, 0, 0] S8x64x256x128
  transposes_S32x8x64x256_S8x256x32x64_1_3_0_2 : S32x8x64x256.Transposes [1, 3, 0, 2] S8x256x32x64
  bcast_S32_S1x1x32x1_2 : S32.BroadcastsInDim S1x1x32x1 (![2] : Fin 1 → Fin S1x1x32x1.rank)
  bcast_S1x1x32x1_S8x256x32x64_0_1_2_3 : S1x1x32x1.BroadcastsInDim S8x256x32x64 (![0, 1, 2, 3] : Fin 4 → Fin S8x256x32x64.rank)
  transposes_S128x8x64x256_S8x256x128x64_1_3_0_2 : S128x8x64x256.Transposes [1, 3, 0, 2] S8x256x128x64
  bcast_S128_S1x1x128x1_2 : S128.BroadcastsInDim S1x1x128x1 (![2] : Fin 1 → Fin S1x1x128x1.rank)
  bcast_S1x1x128x1_S8x256x128x64_0_1_2_3 : S1x1x128x1.BroadcastsInDim S8x256x128x64 (![0, 1, 2, 3] : Fin 4 → Fin S8x256x128x64.rank)
  reducesTo_S8x256x64x64_S8x256x64_d2 : S8x256x64x64.ReducesTo [2] S8x256x64
  h_S_ : 0 < S_.numel
  bcast_S_S8x256x64 : S_.BroadcastsInDim S8x256x64 (![] : Fin 0 → Fin S8x256x64.rank)
  bcast_S8x256x64_S8x256x1x64_0_1_3 : S8x256x64.BroadcastsInDim S8x256x1x64 (![0, 1, 3] : Fin 3 → Fin S8x256x1x64.rank)
  bcast_S8x256x1x64_S8x256x64x64_0_1_2_3 : S8x256x1x64.BroadcastsInDim S8x256x64x64 (![0, 1, 2, 3] : Fin 4 → Fin S8x256x64x64.rank)
  transposes_S8x256x128x64_S8x64x256x128_0_3_1_2 : S8x256x128x64.Transposes [0, 3, 1, 2] S8x64x256x128
  concatenates_S8x64x256x128_S8x64x256x128_S8x128x256x128_d1 : Shape.Concatenates [S8x64x256x128, S8x64x256x128] S8x128x256x128 1
  dot_S32x128_S8x64x256x128_S32x8x64x256_1_3_0_012_n_n_wf : DotDims.WF S32x128 S8x64x256x128 S32x8x64x256 [1] [3] [0] [0, 1, 2] [] []
  dot_S128x128_S8x64x256x128_S128x8x64x256_1_3_0_012_n_n_wf : DotDims.WF S128x128 S8x64x256x128 S128x8x64x256 [1] [3] [0] [0, 1, 2] [] []
  dot_S8x256x32x64_S8x256x32x64_S8x256x64x64_2_2_3_3_01_01_wf : DotDims.WF S8x256x32x64 S8x256x32x64 S8x256x64x64 [2] [2] [3] [3] [0, 1] [0, 1]
  dot_S8x256x128x64_S8x256x64x64_S8x256x128x64_3_2_2_3_01_01_wf : DotDims.WF S8x256x128x64 S8x256x64x64 S8x256x128x64 [3] [2] [2] [3] [0, 1] [0, 1]

variable [Facts₀]

def dot_S32x128_S8x64x256x128_S32x8x64x256_1_3_0_012_n_n : DotDims S32x128 S8x64x256x128 S32x8x64x256 where
  lhsContracting := [1]
  rhsContracting := [3]
  lhsNonContracting := [0]
  rhsNonContracting := [0, 1, 2]
  lhsBatch := []
  rhsBatch := []
  wf := dot_S32x128_S8x64x256x128_S32x8x64x256_1_3_0_012_n_n_wf
def dot_S128x128_S8x64x256x128_S128x8x64x256_1_3_0_012_n_n : DotDims S128x128 S8x64x256x128 S128x8x64x256 where
  lhsContracting := [1]
  rhsContracting := [3]
  lhsNonContracting := [0]
  rhsNonContracting := [0, 1, 2]
  lhsBatch := []
  rhsBatch := []
  wf := dot_S128x128_S8x64x256x128_S128x8x64x256_1_3_0_012_n_n_wf
def dot_S8x256x32x64_S8x256x32x64_S8x256x64x64_2_2_3_3_01_01 : DotDims S8x256x32x64 S8x256x32x64 S8x256x64x64 where
  lhsContracting := [2]
  rhsContracting := [2]
  lhsNonContracting := [3]
  rhsNonContracting := [3]
  lhsBatch := [0, 1]
  rhsBatch := [0, 1]
  wf := dot_S8x256x32x64_S8x256x32x64_S8x256x64x64_2_2_3_3_01_01_wf
def dot_S8x256x128x64_S8x256x64x64_S8x256x128x64_3_2_2_3_01_01 : DotDims S8x256x128x64 S8x256x64x64 S8x256x128x64 where
  lhsContracting := [3]
  rhsContracting := [2]
  lhsNonContracting := [2]
  rhsNonContracting := [3]
  lhsBatch := [0, 1]
  rhsBatch := [0, 1]
  wf := dot_S8x256x128x64_S8x256x64x64_S8x256x128x64_3_2_2_3_01_01_wf

class Facts : Prop extends Facts₀ where

variable [Facts]
-- ==== Proof.KernelProducts.lean ====
/-
  The kernel's four matrix products read at an output entry, on the extended reals.

  Each is a product into a zero accumulator, so its entry is the plain sum over the one contracted index of the operands'
  products: the two row-block projections `[4096, 128] · [128, n]`, the batched `k · qᵀ` (both operands contracted on their
  last axis) and the batched `w · v` (left operand's last axis against the right operand's middle axis). The operand
  positions are read off the product's dimension record coordinate by coordinate.
-/
import proofs.«180189_j62723702391454_2_alg».proof.Proof.Gen.KernelIdeal
import Idealize.ShloMosaic.Lib.ValueIdx
import Idealize.ShloMosaic.PureOps.Ideal.Laws

noncomputable section

namespace Cert.KernelIdeal.Products

open Cert.KernelIdeal Cert.KernelIdeal.Gen Idealize.ShloMosaic Idealize.ShloMosaic.ValueIdx

/-! ## dot_S4096x128_S128x32_S4096x32_1_0_0_1_n_n -/

theorem lhs_Rows32_0 (j : S4096x32.Idx) (q : dot_S4096x128_S128x32_S4096x32_1_0_0_1_n_n.contr.Idx) :
    (dot_S4096x128_S128x32_S4096x32_1_0_0_1_n_n.lhsIdx j q 0).val = (j 0).val := by
  unfold DotDims.lhsIdx
  rw [dif_neg (show ¬(0 : Fin S4096x128.rank) ∈ dot_S4096x128_S128x32_S4096x32_1_0_0_1_n_n.lhsBatch by decide), dif_pos (show (0 : Fin S4096x128.rank) ∈ dot_S4096x128_S128x32_S4096x32_1_0_0_1_n_n.lhsNonContracting by decide)]
  rfl
theorem lhs_Rows32_1 (j : S4096x32.Idx) (q : dot_S4096x128_S128x32_S4096x32_1_0_0_1_n_n.contr.Idx) :
    (dot_S4096x128_S128x32_S4096x32_1_0_0_1_n_n.lhsIdx j q 1).val = (q ⟨0, by decide⟩).val :=
  dot_S4096x128_S128x32_S4096x32_1_0_0_1_n_n.lhsIdx_val_of_single rfl j q
theorem rhs_Rows32_0 (j : S4096x32.Idx) (q : dot_S4096x128_S128x32_S4096x32_1_0_0_1_n_n.contr.Idx) :
    (dot_S4096x128_S128x32_S4096x32_1_0_0_1_n_n.rhsIdx j q 0).val = (q ⟨0, by decide⟩).val :=
  dot_S4096x128_S128x32_S4096x32_1_0_0_1_n_n.rhsIdx_val_of_single rfl j q
theorem rhs_Rows32_1 (j : S4096x32.Idx) (q : dot_S4096x128_S128x32_S4096x32_1_0_0_1_n_n.contr.Idx) :
    (dot_S4096x128_S128x32_S4096x32_1_0_0_1_n_n.rhsIdx j q 1).val = (j 1).val := by
  unfold DotDims.rhsIdx
  rw [dif_neg (show ¬(1 : Fin S128x32.rank) ∈ dot_S4096x128_S128x32_S4096x32_1_0_0_1_n_n.rhsBatch by decide), dif_pos (show (1 : Fin S128x32.rank) ∈ dot_S4096x128_S128x32_S4096x32_1_0_0_1_n_n.rhsNonContracting by decide)]
  rfl

/-- A row block times a [128, 32] matrix into zero: entry (i, d) is `Σ_k l i k · r k d`. -/
theorem matmulRows32_apply (l : FVec Ideal S4096x128 .bf16) (r : FVec Ideal S128x32 .bf16) (i : Fin 4096) (d : Fin 32) :
    matmul dot_S4096x128_S128x32_S4096x32_1_0_0_1_n_n none l r (constant (F := Ideal) S4096x32 .f32 0x00000000#32) (ix2 i d)
      = ∑ k : Fin 128, l (ix2 i k) * r (ix2 k d) := by
  simp only [matmul]
  rw [Ideal.matmul_constant_zero_apply, ← Equiv.sum_comp (contrEquiv1 dot_S4096x128_S128x32_S4096x32_1_0_0_1_n_n 128 rfl rfl).symm]
  refine Finset.sum_congr rfl fun k _ => ?_
  have hk := contrEquiv1_symm_val dot_S4096x128_S128x32_S4096x32_1_0_0_1_n_n 128 rfl rfl k
  have el : dot_S4096x128_S128x32_S4096x32_1_0_0_1_n_n.lhsIdx (ix2 i d) ((contrEquiv1 dot_S4096x128_S128x32_S4096x32_1_0_0_1_n_n 128 rfl rfl).symm k) = ix2 i k := funext fun a => Fin.ext (by
    match a with
    | ⟨0, _⟩ => exact lhs_Rows32_0 _ _
    | ⟨1, _⟩ => exact (lhs_Rows32_1 _ _).trans hk)
  have er : dot_S4096x128_S128x32_S4096x32_1_0_0_1_n_n.rhsIdx (ix2 i d) ((contrEquiv1 dot_S4096x128_S128x32_S4096x32_1_0_0_1_n_n 128 rfl rfl).symm k) = ix2 k d := funext fun a => Fin.ext (by
    match a with
    | ⟨0, _⟩ => exact (rhs_Rows32_0 _ _).trans hk
    | ⟨1, _⟩ => exact rhs_Rows32_1 _ _)
  rw [el, er]

/-! ## dot_S4096x128_S128x128_S4096x128_1_0_0_1_n_n -/

theorem lhs_Rows128_0 (j : S4096x128.Idx) (q : dot_S4096x128_S128x128_S4096x128_1_0_0_1_n_n.contr.Idx) :
    (dot_S4096x128_S128x128_S4096x128_1_0_0_1_n_n.lhsIdx j q 0).val = (j 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_Rows128_1 (j : S4096x128.Idx) (q : dot_S4096x128_S128x128_S4096x128_1_0_0_1_n_n.contr.Idx) :
    (dot_S4096x128_S128x128_S4096x128_1_0_0_1_n_n.lhsIdx j q 1).val = (q ⟨0, by decide⟩).val :=
  dot_S4096x128_S128x128_S4096x128_1_0_0_1_n_n.lhsIdx_val_of_single rfl j q
theorem rhs_Rows128_0 (j : S4096x128.Idx) (q : dot_S4096x128_S128x128_S4096x128_1_0_0_1_n_n.contr.Idx) :
    (dot_S4096x128_S128x128_S4096x128_1_0_0_1_n_n.rhsIdx j q 0).val = (q ⟨0, by decide⟩).val :=
  dot_S4096x128_S128x128_S4096x128_1_0_0_1_n_n.rhsIdx_val_of_single rfl j q
theorem rhs_Rows128_1 (j : S4096x128.Idx) (q : dot_S4096x128_S128x128_S4096x128_1_0_0_1_n_n.contr.Idx) :
    (dot_S4096x128_S128x128_S4096x128_1_0_0_1_n_n.rhsIdx j q 1).val = (j 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- A row block times a [128, 128] matrix into zero: entry (i, u) is `Σ_k l i k · r k u`. -/
theorem matmulRows128_apply (l : FVec Ideal S4096x128 .bf16) (r : FVec Ideal S128x128 .bf16) (i : Fin 4096) (u : Fin 128) :
    matmul dot_S4096x128_S128x128_S4096x128_1_0_0_1_n_n none l r (constant (F := Ideal) S4096x128 .f32 0x00000000#32) (ix2 i u)
      = ∑ k : Fin 128, l (ix2 i k) * r (ix2 k u) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 i u) ((contrEquiv1 dot_S4096x128_S128x128_S4096x128_1_0_0_1_n_n 128 rfl rfl).symm k) = ix2 i k := funext fun a => Fin.ext (by
    match a with
    | ⟨0, _⟩ => exact lhs_Rows128_0 _ _
    | ⟨1, _⟩ => exact (lhs_Rows128_1 _ _).trans hk)
  have er : dot_S4096x128_S128x128_S4096x128_1_0_0_1_n_n.rhsIdx (ix2 i u) ((contrEquiv1 dot_S4096x128_S128x128_S4096x128_1_0_0_1_n_n 128 rfl rfl).symm k) = ix2 k u := funext fun a => Fin.ext (by
    match a with
    | ⟨0, _⟩ => exact (rhs_Rows128_0 _ _).trans hk
    | ⟨1, _⟩ => exact rhs_Rows128_1 _ _)
  rw [el, er]

/-! ## dot_S64x64x32_S64x64x32_S64x64x64_2_2_1_1_0_0 -/

theorem lhs_KQ_0 (j : S64x64x64.Idx) (q : dot_S64x64x32_S64x64x32_S64x64x64_2_2_1_1_0_0.contr.Idx) :
    (dot_S64x64x32_S64x64x32_S64x64x64_2_2_1_1_0_0.lhsIdx j q 0).val = (j 0).val := by
  unfold DotDims.lhsIdx
  rw [dif_pos (show (0 : Fin S64x64x32.rank) ∈ dot_S64x64x32_S64x64x32_S64x64x64_2_2_1_1_0_0.lhsBatch by decide)]
  rfl
theorem lhs_KQ_1 (j : S64x64x64.Idx) (q : dot_S64x64x32_S64x64x32_S64x64x64_2_2_1_1_0_0.contr.Idx) :
    (dot_S64x64x32_S64x64x32_S64x64x64_2_2_1_1_0_0.lhsIdx j q 1).val = (j 1).val := by
  unfold DotDims.lhsIdx
  rw [dif_neg (show ¬(1 : Fin S64x64x32.rank) ∈ dot_S64x64x32_S64x64x32_S64x64x64_2_2_1_1_0_0.lhsBatch by decide), dif_pos (show (1 : Fin S64x64x32.rank) ∈ dot_S64x64x32_S64x64x32_S64x64x64_2_2_1_1_0_0.lhsNonContracting by decide)]
  rfl
theorem lhs_KQ_2 (j : S64x64x64.Idx) (q : dot_S64x64x32_S64x64x32_S64x64x64_2_2_1_1_0_0.contr.Idx) :
    (dot_S64x64x32_S64x64x32_S64x64x64_2_2_1_1_0_0.lhsIdx j q 2).val = (q ⟨0, by decide⟩).val :=
  dot_S64x64x32_S64x64x32_S64x64x64_2_2_1_1_0_0.lhsIdx_val_of_single rfl j q
theorem rhs_KQ_0 (j : S64x64x64.Idx) (q : dot_S64x64x32_S64x64x32_S64x64x64_2_2_1_1_0_0.contr.Idx) :
    (dot_S64x64x32_S64x64x32_S64x64x64_2_2_1_1_0_0.rhsIdx j q 0).val = (j 0).val := by
  unfold DotDims.rhsIdx
  rw [dif_pos (show (0 : Fin S64x64x32.rank) ∈ dot_S64x64x32_S64x64x32_S64x64x64_2_2_1_1_0_0.rhsBatch by decide)]
  rfl
theorem rhs_KQ_1 (j : S64x64x64.Idx) (q : dot_S64x64x32_S64x64x32_S64x64x64_2_2_1_1_0_0.contr.Idx) :
    (dot_S64x64x32_S64x64x32_S64x64x64_2_2_1_1_0_0.rhsIdx j q 1).val = (j 2).val := by
  unfold DotDims.rhsIdx
  rw [dif_neg (show ¬(1 : Fin S64x64x32.rank) ∈ dot_S64x64x32_S64x64x32_S64x64x64_2_2_1_1_0_0.rhsBatch by decide), dif_pos (show (1 : Fin S64x64x32.rank) ∈ dot_S64x64x32_S64x64x32_S64x64x64_2_2_1_1_0_0.rhsNonContracting by decide)]
  rfl
theorem rhs_KQ_2 (j : S64x64x64.Idx) (q : dot_S64x64x32_S64x64x32_S64x64x64_2_2_1_1_0_0.contr.Idx) :
    (dot_S64x64x32_S64x64x32_S64x64x64_2_2_1_1_0_0.rhsIdx j q 2).val = (q ⟨0, by decide⟩).val :=
  dot_S64x64x32_S64x64x32_S64x64x64_2_2_1_1_0_0.rhsIdx_val_of_single rfl j q

/-- Batched over `f`, both operands contracted on their last axis: entry (f, c, e) is `Σ_k l f c k · r f e k`. -/
theorem matmulKQ_apply (l : FVec Ideal S64x64x32 .bf16) (r : FVec Ideal S64x64x32 .bf16) (f c e : Fin 64) :
    matmul dot_S64x64x32_S64x64x32_S64x64x64_2_2_1_1_0_0 none l r (constant (F := Ideal) S64x64x64 .f32 0x00000000#32) (ix3 f c e)
      = ∑ k : Fin 32, l (ix3 f c k) * r (ix3 f e k) := by
  simp only [matmul]
  rw [Ideal.matmul_constant_zero_apply, ← Equiv.sum_comp (contrEquiv1 dot_S64x64x32_S64x64x32_S64x64x64_2_2_1_1_0_0 32 rfl rfl).symm]
  refine Finset.sum_congr rfl fun k _ => ?_
  have hk := contrEquiv1_symm_val dot_S64x64x32_S64x64x32_S64x64x64_2_2_1_1_0_0 32 rfl rfl k
  have el : dot_S64x64x32_S64x64x32_S64x64x64_2_2_1_1_0_0.lhsIdx (ix3 f c e) ((contrEquiv1 dot_S64x64x32_S64x64x32_S64x64x64_2_2_1_1_0_0 32 rfl rfl).symm k) = ix3 f c k := funext fun a => Fin.ext (by
    match a with
    | ⟨0, _⟩ => exact lhs_KQ_0 _ _
    | ⟨1, _⟩ => exact lhs_KQ_1 _ _
    | ⟨2, _⟩ => exact (lhs_KQ_2 _ _).trans hk)
  have er : dot_S64x64x32_S64x64x32_S64x64x64_2_2_1_1_0_0.rhsIdx (ix3 f c e) ((contrEquiv1 dot_S64x64x32_S64x64x32_S64x64x64_2_2_1_1_0_0 32 rfl rfl).symm k) = ix3 f e k := funext fun a => Fin.ext (by
    match a with
    | ⟨0, _⟩ => exact rhs_KQ_0 _ _
    | ⟨1, _⟩ => exact rhs_KQ_1 _ _
    | ⟨2, _⟩ => exact (rhs_KQ_2 _ _).trans hk)
  rw [el, er]

/-! ## dot_S64x64x64_S64x64x128_S64x64x128_2_1_1_2_0_0 -/

theorem lhs_WV_0 (j : S64x64x128.Idx) (q : dot_S64x64x64_S64x64x128_S64x64x128_2_1_1_2_0_0.contr.Idx) :
    (dot_S64x64x64_S64x64x128_S64x64x128_2_1_1_2_0_0.lhsIdx j q 0).val = (j 0).val := by
  unfold DotDims.lhsIdx
  rw [dif_pos (show (0 : Fin S64x64x64.rank) ∈ dot_S64x64x64_S64x64x128_S64x64x128_2_1_1_2_0_0.lhsBatch by decide)]
  rfl
theorem lhs_WV_1 (j : S64x64x128.Idx) (q : dot_S64x64x64_S64x64x128_S64x64x128_2_1_1_2_0_0.contr.Idx) :
    (dot_S64x64x64_S64x64x128_S64x64x128_2_1_1_2_0_0.lhsIdx j q 1).val = (j 1).val := by
  unfold DotDims.lhsIdx
  rw [dif_neg (show ¬(1 : Fin S64x64x64.rank) ∈ dot_S64x64x64_S64x64x128_S64x64x128_2_1_1_2_0_0.lhsBatch by decide), dif_pos (show (1 : Fin S64x64x64.rank) ∈ dot_S64x64x64_S64x64x128_S64x64x128_2_1_1_2_0_0.lhsNonContracting by decide)]
  rfl
theorem lhs_WV_2 (j : S64x64x128.Idx) (q : dot_S64x64x64_S64x64x128_S64x64x128_2_1_1_2_0_0.contr.Idx) :
    (dot_S64x64x64_S64x64x128_S64x64x128_2_1_1_2_0_0.lhsIdx j q 2).val = (q ⟨0, by decide⟩).val :=
  dot_S64x64x64_S64x64x128_S64x64x128_2_1_1_2_0_0.lhsIdx_val_of_single rfl j q
theorem rhs_WV_0 (j : S64x64x128.Idx) (q : dot_S64x64x64_S64x64x128_S64x64x128_2_1_1_2_0_0.contr.Idx) :
    (dot_S64x64x64_S64x64x128_S64x64x128_2_1_1_2_0_0.rhsIdx j q 0).val = (j 0).val := by
  unfold DotDims.rhsIdx
  rw [dif_pos (show (0 : Fin S64x64x128.rank) ∈ dot_S64x64x64_S64x64x128_S64x64x128_2_1_1_2_0_0.rhsBatch by decide)]
  rfl
theorem rhs_WV_1 (j : S64x64x128.Idx) (q : dot_S64x64x64_S64x64x128_S64x64x128_2_1_1_2_0_0.contr.Idx) :
    (dot_S64x64x64_S64x64x128_S64x64x128_2_1_1_2_0_0.rhsIdx j q 1).val = (q ⟨0, by decide⟩).val :=
  dot_S64x64x64_S64x64x128_S64x64x128_2_1_1_2_0_0.rhsIdx_val_of_single rfl j q
theorem rhs_WV_2 (j : S64x64x128.Idx) (q : dot_S64x64x64_S64x64x128_S64x64x128_2_1_1_2_0_0.contr.Idx) :
    (dot_S64x64x64_S64x64x128_S64x64x128_2_1_1_2_0_0.rhsIdx j q 2).val = (j 2).val := by
  unfold DotDims.rhsIdx
  rw [dif_neg (show ¬(2 : Fin S64x64x128.rank) ∈ dot_S64x64x64_S64x64x128_S64x64x128_2_1_1_2_0_0.rhsBatch by decide), dif_pos (show (2 : Fin S64x64x128.rank) ∈ dot_S64x64x64_S64x64x128_S64x64x128_2_1_1_2_0_0.rhsNonContracting by decide)]
  rfl

/-- Batched over `f`, the left operand's last axis against the right operand's middle axis: entry (f, e, u) is `Σ_k l f e k · r f k u`. -/
theorem matmulWV_apply (l : FVec Ideal S64x64x64 .bf16) (r : FVec Ideal S64x64x128 .bf16) (f e : Fin 64) (u : Fin 128) :
    matmul dot_S64x64x64_S64x64x128_S64x64x128_2_1_1_2_0_0 none l r (constant (F := Ideal) S64x64x128 .f32 0x00000000#32) (ix3 f e u)
      = ∑ k : Fin 64, l (ix3 f e k) * r (ix3 f k u) := by
  simp only [matmul]
  rw [Ideal.matmul_constant_zero_apply, ← Equiv.sum_comp (contrEquiv1 dot_S64x64x64_S64x64x128_S64x64x128_2_1_1_2_0_0 64 rfl rfl).symm]
  refine Finset.sum_congr rfl fun k _ => ?_
  have hk := contrEquiv1_symm_val dot_S64x64x64_S64x64x128_S64x64x128_2_1_1_2_0_0 64 rfl rfl k
  have el : dot_S64x64x64_S64x64x128_S64x64x128_2_1_1_2_0_0.lhsIdx (ix3 f e u) ((contrEquiv1 dot_S64x64x64_S64x64x128_S64x64x128_2_1_1_2_0_0 64 rfl rfl).symm k) = ix3 f e k := funext fun a => Fin.ext (by
    match a with
    | ⟨0, _⟩ => exact lhs_WV_0 _ _
    | ⟨1, _⟩ => exact lhs_WV_1 _ _
    | ⟨2, _⟩ => exact (lhs_WV_2 _ _).trans hk)
  have er : dot_S64x64x64_S64x64x128_S64x64x128_2_1_1_2_0_0.rhsIdx (ix3 f e u) ((contrEquiv1 dot_S64x64x64_S64x64x128_S64x64x128_2_1_1_2_0_0 64 rfl rfl).symm k) = ix3 f k u := funext fun a => Fin.ext (by
    match a with
    | ⟨0, _⟩ => exact rhs_WV_0 _ _
    | ⟨1, _⟩ => exact (rhs_WV_1 _ _).trans hk
    | ⟨2, _⟩ => exact rhs_WV_2 _ _)
  rw [el, er]

end Cert.KernelIdeal.Products

end
-- ==== Proof.LibRank3Layout.lean ====
/-
  Re-layings of a rank-3 array read at one entry, general in the extents.

  `swapLead_apply`: the two leading axes swapped. `biasRow_apply`: a vector `[b]` laid as one row and put under every row of
  `[a, b]`. `keepMid_apply`: a matrix `[a, c]` given a middle unit axis and broadcast along it to `[a, b, c]` (what a reduction
  over the middle axis with its axis kept, broadcast back, reads). `laneSlice_apply`: a window of the last axis.
  `lanePack_left` / `lanePack_right`: two equal halves side by side on the last axis. Every index is written with the
  literal-size constructors `ix1 … ix3`.
-/
import Idealize.ShloMosaic.Lib.Pipeline.Value
import Idealize.ShloMosaic.Lib.ValueIdx
import Idealize.ShloMosaic.Lib.ValueLayout

noncomputable section

namespace Rank3Layout

open Idealize.ShloMosaic Idealize.ShloMosaic.ValueIdx

variable {α : Type}

/-- The two leading axes swapped: entry (j, i, k) of the result is entry (i, j, k) of the operand. -/
theorem swapLead_apply {a b c : ℕ} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun d => match d with | ⟨0, _⟩ => rfl | ⟨1, _⟩ => rfl | ⟨2, _⟩ => rfl

/-- A vector as one row, then that row under every row: entry (p, d) is entry `d` of the vector. -/
theorem biasRow_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (d : Fin b) :
    broadcastTo ⟨2, ![a, b]⟩ (shapeCast ⟨2, ![1, b]⟩ v h1) h2 (ix2 p d) = v (ix1 d) :=
  (broadcastTo_1b_ab_apply _ h2 p d).trans (shapeCast_a_1a_apply v h1 0 d)

/-- A matrix `[a, c]` given a middle unit axis and broadcast along it to `[a, b, c]`: entry (i, j, k) is entry (i, k). -/
theorem keepMid_apply {a b c : ℕ} (v : (⟨2, ![a, c]⟩ : Shape).Idx → α) (h1 : (⟨2, ![a, c]⟩ : Shape).ShapeCasts ⟨3, ![a, 1, c]⟩)
    (h2 : (⟨3, ![a, 1, c]⟩ : Shape).Broadcasts ⟨3, ![a, b, c]⟩) (i : Fin a) (j : Fin b) (k : Fin c) :
    broadcastTo ⟨3, ![a, b, c]⟩ (shapeCast ⟨3, ![a, 1, c]⟩ v h1) h2 (ix3 i j k) = v (ix2 i k) := by
  refine (broadcastTo_apply _ h2 (ix3 i j k) (ix3 i (0 : Fin 1) k) fun ax => ?_).trans ?_
  · match ax with
    | ⟨0, _⟩ =>
      show i.val = if a = 1 then 0 else i.val
      split
      · have := i.isLt; omega
      · rfl
    | ⟨1, _⟩ => rfl
    | ⟨2, _⟩ =>
      show k.val = if c = 1 then 0 else k.val
      split
      · have := k.isLt; omega
      · rfl
  · exact shapeCast_apply v h1 _ _ (by
      rw [Shape.rowMajor_val_three, Shape.rowMajor_val_two]
      show i.val * c + k.val = (i.val * 1 + 0) * c + k.val
      rw [Nat.mul_one, Nat.add_zero])

/-- A window of the last axis starting at `o`: entry (i, j, k) is entry (i, j, o + k). -/
theorem laneSlice_apply {a b n m : ℕ} (o : ℕ) (x : (⟨3, ![a, b, n]⟩ : Shape).Idx → α)
    (h : (⟨3, ![a, b, n]⟩ : Shape).Slices ![0, 0, o] ⟨3, ![a, b, m]⟩) (i : Fin a) (j : Fin b) (k : Fin m) (k' : Fin n)
    (hk : k'.val = o + k.val) :
    extractStridedSlice ⟨3, ![a, b, m]⟩ ![0, 0, o] x h (ix3 i j k) = x (ix3 i j k') :=
  extractStridedSlice_apply _ x h _ _ fun d => match d with
    | ⟨0, _⟩ => by show i.val = 0 + i.val; omega
    | ⟨1, _⟩ => by show j.val = 0 + j.val; omega
    | ⟨2, _⟩ => by show k'.val = o + k.val; exact hk

/-- Two `[a, b, m]` halves side by side on the last axis: a lane in the first half reads the first operand. -/
theorem lanePack_left {a b m n : ℕ} (x₁ x₂ : (⟨3, ![a, b, m]⟩ : Shape).Idx → α)
    (h : Shape.Concatenates [(⟨3, ![a, b, m]⟩ : Shape), ⟨3, ![a, b, m]⟩] ⟨3, ![a, b, n]⟩ 2) (i : Fin a) (j : Fin b) (k : Fin m) (k' : Fin n)
    (hk : k'.val = k.val) :
    concatenate ⟨3, ![a, b, n]⟩ 2 [⟨⟨3, ![a, b, m]⟩, x₁⟩, ⟨⟨3, ![a, b, m]⟩, x₂⟩] h (ix3 i j k') = x₁ (ix3 i j k) :=
  concatenate_pair_apply_left 2 x₁ x₂ h (ix3 i j k') rfl (ix3 i j k) fun d => match d with
    | ⟨0, _⟩ => rfl
    | ⟨1, _⟩ => rfl
    | ⟨2, _⟩ => hk.symm

/-- … and a lane in the second half reads the second operand, `m` lanes back. -/
theorem lanePack_right {a b m n : ℕ} (x₁ x₂ : (⟨3, ![a, b, m]⟩ : Shape).Idx → α)
    (h : Shape.Concatenates [(⟨3, ![a, b, m]⟩ : Shape), ⟨3, ![a, b, m]⟩] ⟨3, ![a, b, n]⟩ 2) (i : Fin a) (j : Fin b) (k : Fin m) (k' : Fin n)
    (hk : k'.val = m + k.val) :
    concatenate ⟨3, ![a, b, n]⟩ 2 [⟨⟨3, ![a, b, m]⟩, x₁⟩, ⟨⟨3, ![a, b, m]⟩, x₂⟩] h (ix3 i j k') = x₂ (ix3 i j k) :=
  concatenate_pair_apply_right 2 x₁ x₂ h (ix3 i j k') rfl rfl (ix3 i j k)
    (fun d hd => match d, hd with
      | ⟨0, _⟩, _ => rfl
      | ⟨1, _⟩, _ => rfl
      | ⟨2, _⟩, hd => absurd rfl hd)
    (by show k.val + m = k'.val; omega)

end Rank3Layout

end
-- ==== Proof.KernelLayout.lean ====
/-
  The kernel's re-layings of a value, each read at one entry.

  The kernel works on a stack of 64 frequency bins `f`, each a 64 × n matrix (channel `c`, then time or feature). It
  flattens (f, c) to the row `f·64 + c` for the projections and unflattens afterwards; swaps the two leading axes on the way
  in and out; swaps the last two axes of the softmax weights; adds a bias row to every row; takes a maximum and a sum over
  the channel axis and broadcasts them back; and packs two 64-lane halves side by side on the last axis. Each lemma says
  which entry of the operand an entry of the result is; those that do not depend on the extents 64 and 128 are in
  LibRank3Layout and are re-exported here.
-/
import proofs.«180189_j62723702391454_2_alg».proof.Proof.LibRank3Layout
import Idealize.ShloMosaic.Lib.Pipeline.Value
import Idealize.ShloMosaic.Lib.ValueIdx
import Idealize.ShloMosaic.Lib.ValueLayout
import Idealize.ShloMosaic.PureOps.Ideal.Laws

noncomputable section

namespace ChanAttn.Layout

open Idealize.ShloMosaic Idealize.ShloMosaic.ValueIdx

variable {α : Type}

/-- The row of (f, c) in the flattened `[64·64, n]` array. -/
def row (f c : Fin 64) : Fin 4096 := ⟨f.val * 64 + c.val, by have := f.isLt; have := c.isLt; omega⟩

/-- `[64, 64, n]` flattened to `[4096, n]`: row `f·64 + c` is the row (f, c). -/
theorem flatten_apply {n : ℕ} (x : (⟨3, ![64, 64, n]⟩ : Shape).Idx → α)
    (h : (⟨3, ![64, 64, n]⟩ : Shape).ShapeCasts ⟨2, ![4096, n]⟩) (f c : Fin 64) (t : Fin n) :
    shapeCast ⟨2, ![4096, n]⟩ x h (ix2 (row f c) t) = x (ix3 f c t) :=
  shapeCast_apply x h _ _ (by
    rw [Shape.rowMajor_val_three, Shape.rowMajor_val_two]
    rfl)

/-- `[4096, n]` unflattened to `[64, 64, n]`: row (f, c) is the row `f·64 + c`. -/
theorem unflatten_apply {n : ℕ} (x : (⟨2, ![4096, n]⟩ : Shape).Idx → α)
    (h : (⟨2, ![4096, n]⟩ : Shape).ShapeCasts ⟨3, ![64, 64, n]⟩) (f c : Fin 64) (t : Fin n) :
    shapeCast ⟨3, ![64, 64, n]⟩ x h (ix3 f c t) = x (ix2 (row f c) t) :=
  shapeCast_apply x h _ _ (by
    rw [Shape.rowMajor_val_three, Shape.rowMajor_val_two]
    rfl)

export Rank3Layout (swapLead_apply biasRow_apply keepMid_apply laneSlice_apply lanePack_left lanePack_right)

/-! ## The two reductions over the channel axis -/

/-- The reduced index (f, j) with channel `k` put back is (f, k, j). -/
theorem lift_mid (h : (⟨3, ![64, 64, 128]⟩ : Shape).Reduces [1] ⟨2, ![64, 128]⟩) (f : Fin 64) (j : Fin 128) (k : Fin 64) :
    h.lift (ix2 f j) k = ix3 f k j := by
  funext d; apply Fin.ext
  match d with
  | ⟨0, _⟩ => rfl
  | ⟨1, _⟩ => rfl
  | ⟨2, _⟩ => rfl

/-- The maximum over the channel axis, from the accumulator's word: the fold of `max` down the column. -/
theorem maxMid_apply (x : FVec Ideal ⟨3, ![64, 64, 128]⟩ .f32) (acc : BitVec 32)
    (h : (⟨3, ![64, 64, 128]⟩ : Shape).Reduces [1] ⟨2, ![64, 128]⟩) (hφ : FKind.Formats .f32)
    (hacc : acc = FKind.maximumf.neutral .f32 hφ) (f : Fin 64) (j : Fin 128) :
    multiReduction .maximumf [1] ⟨2, ![64, 128]⟩ x acc h hφ hacc (ix2 f j)
      = (Finset.univ : Finset (Fin 64)).fold max (Ideal.ofBits .f32 acc) (fun k => x (ix3 f k j)) := by
  refine (Ideal.multiReduction_maximumf_single x acc h hφ hacc (ix2 f j)).trans ?_
  exact congrArg (fun g => (Finset.univ : Finset (Fin 64)).fold max (Ideal.ofBits .f32 acc) g)
    (funext fun k => congrArg x (lift_mid h f j k))

/-- The sum over the channel axis. -/
theorem sumMid_apply (x : FVec Ideal ⟨3, ![64, 64, 128]⟩ .f32) (acc : BitVec 32)
    (h : (⟨3, ![64, 64, 128]⟩ : Shape).Reduces [1] ⟨2, ![64, 128]⟩) (hφ : FKind.Formats .f32)
    (hacc : acc = FKind.add.neutral .f32 hφ) (f : Fin 64) (j : Fin 128) :
    multiReduction .add [1] ⟨2, ![64, 128]⟩ x acc h hφ hacc (ix2 f j) = ∑ k : Fin 64, x (ix3 f k j) := by
  refine (Ideal.multiReduction_add_single x acc h hφ hacc (ix2 f j)).trans ?_
  exact Finset.sum_congr rfl fun k _ => congrArg x (lift_mid h f j k)

end ChanAttn.Layout

end
-- ==== Proof.AttnSpec.lean ====
/-
  The function both programs compute, written once over plain coordinates.

  Fix a batch entry and a frequency bin. The input slice there is a 128 × 128 table `xs ch t` (channel, time); channels
  0 … 63 are the real parts and 64 … 127 the imaginary parts of 64 complex channels. With weights `wk wq : 32 × 128`,
  `wv : 128 × 128` and biases `bk bq bv`:
    * keys, queries, values: `k c d = Σ_t xs c t · wk d t + bk d`, likewise `q` (with `wq bq`) and `v c t' ` (with `wv bv`),
      each taken of the real rows and of the imaginary rows;
    * the complex product without conjugation, `P c e = Σ_d k c d · q e d`:
      `pR = kR·qR − kI·qI`, `pI = kR·qI + kI·qR`;
    * a softmax down each column `e` (over `c`), of `pR` and of `pI` separately, in the max-shifted form
      `exp (p c − M) / Σ_k exp (p k − M)` with `M` the column maximum taken from −∞;
    * the complex product `o e t = Σ_c w c e · v c t`: `oR = wR·vR − wI·vI`, `oI = wI·vR + wR·vI`;
    * output channel `e` is `oR e`, output channel `64 + e` is `oI e`.
  Everything is on the extended reals; no step below needs an entry to be finite.
-/
import Idealize.ShloMosaic.PureOps.Ideal
import Idealize.ShloMosaic.Lib.ValueIdx

noncomputable section

namespace ChanAttn

open Idealize.ShloMosaic Idealize.ShloMosaic.ValueIdx

/-- −∞, as the f32 word both programs start a column maximum from. -/
abbrev negInf : EReal := Ideal.ofBits .f32 0xFF800000#32

/-- One output of a linear map on the time axis: `Σ_t x t · w t + b`. -/
def proj (x w : Fin 128 → EReal) (b : EReal) : EReal := (∑ t : Fin 128, x t * w t) + b

/-- The maximum of a column of 64 entries, taken from −∞ (and met with −∞ once more, as both programs do). -/
def colMax (p : Fin 64 → EReal) : EReal := max negInf ((Finset.univ : Finset (Fin 64)).fold max negInf p)

/-- The softmax weight of entry `c` in a column `p`, max-shifted. -/
def softCol (p : Fin 64 → EReal) (c : Fin 64) : EReal :=
  Ideal.div (Ideal.exp (p c - colMax p)) (∑ k : Fin 64, Ideal.exp (p k - colMax p))

/-- Row of the real part of complex channel `c`. -/
def re (c : Fin 64) : Fin 128 := ⟨c.val, by have := c.isLt; omega⟩
/-- Row of the imaginary part of complex channel `c`. -/
def im (c : Fin 64) : Fin 128 := ⟨64 + c.val, by have := c.isLt; omega⟩

section Slice

variable (xs : Fin 128 → Fin 128 → EReal) (wk wq : Fin 32 → Fin 128 → EReal) (bk bq : Fin 32 → EReal)
  (wv : Fin 128 → Fin 128 → EReal) (bv : Fin 128 → EReal)

def kR (c : Fin 64) (d : Fin 32) : EReal := proj (xs (re c)) (wk d) (bk d)
def kI (c : Fin 64) (d : Fin 32) : EReal := proj (xs (im c)) (wk d) (bk d)
def qR (c : Fin 64) (d : Fin 32) : EReal := proj (xs (re c)) (wq d) (bq d)
def qI (c : Fin 64) (d : Fin 32) : EReal := proj (xs (im c)) (wq d) (bq d)
def vR (c : Fin 64) (t : Fin 128) : EReal := proj (xs (re c)) (wv t) (bv t)
def vI (c : Fin 64) (t : Fin 128) : EReal := proj (xs (im c)) (wv t) (bv t)

/-- Real part of `Σ_d k c d · q e d`. -/
def pR (c e : Fin 64) : EReal :=
  (∑ d : Fin 32, kR xs wk bk c d * qR xs wq bq e d) - (∑ d : Fin 32, kI xs wk bk c d * qI xs wq bq e d)
/-- Imaginary part of `Σ_d k c d · q e d`. -/
def pI (c e : Fin 64) : EReal :=
  (∑ d : Fin 32, kR xs wk bk c d * qI xs wq bq e d) + (∑ d : Fin 32, kI xs wk bk c d * qR xs wq bq e d)

/-- Softmax of the real parts down column `e`. -/
def wR (c e : Fin 64) : EReal := softCol (fun k => pR xs wk wq bk bq k e) c
/-- Softmax of the imaginary parts down column `e`. -/
def wI (c e : Fin 64) : EReal := softCol (fun k => pI xs wk wq bk bq k e) c

/-- Real part of `Σ_c w c e · v c t`. -/
def oR (e : Fin 64) (t : Fin 128) : EReal :=
  (∑ c : Fin 64, wR xs wk wq bk bq c e * vR xs wv bv c t) - (∑ c : Fin 64, wI xs wk wq bk bq c e * vI xs wv bv c t)
/-- Imaginary part of `Σ_c w c e · v c t`. -/
def oI (e : Fin 64) (t : Fin 128) : EReal :=
  (∑ c : Fin 64, wI xs wk wq bk bq c e * vR xs wv bv c t) + (∑ c : Fin 64, wR xs wk wq bk bq c e * vI xs wv bv c t)

/-- The output slice: real parts on channels 0 … 63, imaginary parts on 64 … 127. -/
def out (ch : Fin 128) (t : Fin 128) : EReal :=
  if h : ch.val < 64 then oR xs wk wq bk bq wv bv ⟨ch.val, h⟩ t
  else oI xs wk wq bk bq wv bv ⟨ch.val - 64, by have := ch.isLt; omega⟩ t

theorem out_re (e : Fin 64) (t : Fin 128) : out xs wk wq bk bq wv bv (re e) t = oR xs wk wq bk bq wv bv e t := by
  unfold out re
  rw [dif_pos (show (⟨e.val, _⟩ : Fin 128).val < 64 from e.isLt)]

theorem out_im (e : Fin 64) (t : Fin 128) : out xs wk wq bk bq wv bv (im e) t = oI xs wk wq bk bq wv bv e t := by
  unfold out im
  rw [dif_neg (show ¬ (⟨64 + e.val, _⟩ : Fin 128).val < 64 by simp)]
  congr 1
  exact Fin.ext (by simp)

end Slice

/-! ## The whole output array, and one grid block of it -/

abbrev SX : Shape := ⟨4, ![8, 128, 256, 128]⟩
abbrev SXb : Shape := ⟨4, ![1, 128, 64, 128]⟩
abbrev SW : Shape := ⟨2, ![32, 128]⟩
abbrev SWt : Shape := ⟨2, ![128, 32]⟩
abbrev SV : Shape := ⟨2, ![128, 128]⟩
abbrev SB : Shape := ⟨1, ![32]⟩
abbrev SBv : Shape := ⟨1, ![128]⟩

/-- The output array at (b, ch, f, t): the slice function of the input's slice at (b, f), with the weights as given
    (`Wk Wq : [32, 128]`, `Wv : [128, 128]`, rows indexed by the output feature). -/
def wholeAt (X : SX.Idx → EReal) (Wk : SW.Idx → EReal) (Bk : SB.Idx → EReal) (Wq : SW.Idx → EReal) (Bq : SB.Idx → EReal)
    (Wv : SV.Idx → EReal) (Bv : SBv.Idx → EReal) (b : Fin 8) (ch : Fin 128) (f : Fin 256) (t : Fin 128) : EReal :=
  out (fun ch' t' => X (ix4 b ch' f t')) (fun d t' => Wk (ix2 d t')) (fun d t' => Wq (ix2 d t')) (fun d => Bk (ix1 d))
    (fun d => Bq (ix1 d)) (fun u t' => Wv (ix2 u t')) (fun u => Bv (ix1 u)) ch t

def whole (X : SX.Idx → EReal) (Wk : SW.Idx → EReal) (Bk : SB.Idx → EReal) (Wq : SW.Idx → EReal) (Bq : SB.Idx → EReal)
    (Wv : SV.Idx → EReal) (Bv : SBv.Idx → EReal) : SX.Idx → EReal :=
  fun i => wholeAt X Wk Bk Wq Bq Wv Bv (i 0) (i 1) (i 2) (i 3)

/-- One grid block, from the blocks the kernel is handed: the input's block `[1, 128, 64, 128]` and the TRANSPOSED weights
    (`WkT WqT : [128, 32]`, `WvT : [128, 128]`, rows indexed by time). -/
def blockAt (xb : SXb.Idx → EReal) (WkT : SWt.Idx → EReal) (Bk : SB.Idx → EReal) (WqT : SWt.Idx → EReal) (Bq : SB.Idx → EReal)
    (WvT : SV.Idx → EReal) (Bv : SBv.Idx → EReal) (ch : Fin 128) (fl : Fin 64) (t : Fin 128) : EReal :=
  out (fun ch' t' => xb (ix4 0 ch' fl t')) (fun d t' => WkT (ix2 t' d)) (fun d t' => WqT (ix2 t' d)) (fun d => Bk (ix1 d))
    (fun d => Bq (ix1 d)) (fun u t' => WvT (ix2 t' u)) (fun u => Bv (ix1 u)) ch t

def block (xb : SXb.Idx → EReal) (WkT : SWt.Idx → EReal) (Bk : SB.Idx → EReal) (WqT : SWt.Idx → EReal) (Bq : SB.Idx → EReal)
    (WvT : SV.Idx → EReal) (Bv : SBv.Idx → EReal) : SXb.Idx → EReal :=
  fun y => blockAt xb WkT Bk WqT Bq WvT Bv (y 1) (y 2) (y 3)

end ChanAttn

end
-- ==== Proof.KernelProjections.lean ====
/-
  The kernel body's values, each read at one entry, layer by layer.

  The body sees one grid block: the input block `[1, 128, 64, 128]` (channel, frequency bin `f` within the block, time),
  the transposed weights and the biases. It lays the real rows (channels 0 … 63) and the imaginary rows (64 … 127) out as
  `[64·64, 128]` row blocks, row `f·64 + c` holding channel `c` at bin `f`; projects them to keys, queries and values;
  forms the complex logits `Σ_d k c d · q e d`; takes the softmax down the channel axis of the real and of the imaginary
  logits, packed side by side on 128 lanes; and forms `Σ_c w c e · v c t`. This module reads the first layer at an entry:
  the row blocks, the weights, and the six projections.
-/
import proofs.«180189_j62723702391454_2_alg».proof.Proof.Gen.KernelIdeal.Skeleton
import proofs.«180189_j62723702391454_2_alg».proof.Proof.KernelProducts
import proofs.«180189_j62723702391454_2_alg».proof.Proof.KernelLayout
import proofs.«180189_j62723702391454_2_alg».proof.Proof.AttnSpec

noncomputable section

namespace Cert.KernelIdeal.Body

open Cert.KernelIdeal Cert.KernelIdeal.Gen Cert.KernelIdeal.Products ChanAttn.Layout
open Idealize.ShloMosaic Idealize.ShloMosaic.ValueIdx

/-! ## The row blocks and the weights -/

/-- The real (or imaginary) half of the input block, as a row block: row `f·64 + c`, column `t`, is channel `c` of the half
    at bin `f` and time `t`. -/
theorem pay3_apply (v : Vec Ideal S1x64x64x128 .f32) (f c : Fin 64) (t : Fin 128) :
    k0_pay3 v (ix2 (row f c) t) = v (ix4 0 c f t) := by
  unfold k0_pay3
  refine (flatten_apply (transpose S64x64x128 [1, 0, 2] (shapeCast S64x64x128 v shapeCasts_S1x64x64x128_S64x64x128)
    transposes_S64x64x128_p1_0_2_S64x64x128) shapeCasts_S64x64x128_S4096x128 f c t).trans ?_
  refine (swapLead_apply (shapeCast S64x64x128 v shapeCasts_S1x64x64x128_S64x64x128)
    transposes_S64x64x128_p1_0_2_S64x64x128 f c t).trans ?_
  exact shapeCast_1abc_abc_apply v shapeCasts_S1x64x64x128_S64x64x128 c f t

theorem pay4_apply (v : Vec Ideal S1x64x64x128 .f32) (f c : Fin 64) (t : Fin 128) :
    k0_pay4 v (ix2 (row f c) t) = v (ix4 0 c f t) := by
  unfold k0_pay4
  refine (flatten_apply (transpose S64x64x128 [1, 0, 2] (shapeCast S64x64x128 v shapeCasts_S1x64x64x128_S64x64x128)
    transposes_S64x64x128_p1_0_2_S64x64x128) shapeCasts_S64x64x128_S4096x128 f c t).trans ?_
  refine (swapLead_apply (shapeCast S64x64x128 v shapeCasts_S1x64x64x128_S64x64x128)
    transposes_S64x64x128_p1_0_2_S64x64x128 f c t).trans ?_
  exact shapeCast_1abc_abc_apply v shapeCasts_S1x64x64x128_S64x64x128 c f t

/-- A weight block passes through unchanged (a cast to its own shape, and a change of float format). -/
theorem pay5_apply (w : Vec Ideal S128x32 .f32) (i : S128x32.Idx) : k0_pay5 w i = w i := by
  unfold k0_pay5
  exact congrFun (shapeCast_self w shapeCasts_S128x32_S128x32) i

theorem pay6_apply (w : Vec Ideal S128x32 .f32) (i : S128x32.Idx) : k0_pay6 w i = w i := by
  unfold k0_pay6
  exact congrFun (shapeCast_self w shapeCasts_S128x32_S128x32) i

theorem pay7_apply (w : Vec Ideal S128x128 .f32) (i : S128x128.Idx) : k0_pay7 w i = w i := by
  unfold k0_pay7
  exact congrFun (shapeCast_self w shapeCasts_S128x128_S128x128) i

/-! ## The projections -/

/-- A row block times a `[128, 32]` weight plus the bias row, unflattened: at (f, c, d) it is
    `Σ_t rows (f·64 + c) t · w t d + b d`. -/
theorem proj32_apply (rows : FVec Ideal S4096x128 .bf16) (w : FVec Ideal S128x32 .bf16) (b : Vec Ideal S32 .f32)
    (f c : Fin 64) (d : Fin 32) :
    shapeCast S64x64x32 (addf (matmul dot_S4096x128_S128x32_S4096x32_1_0_0_1_n_n none rows w (constant (F := Ideal) S4096x32 .f32 0x00000000#32))
        (broadcastTo S4096x32 (shapeCast S1x32 b shapeCasts_S32_S1x32) broadcasts_S1x32_S4096x32)) shapeCasts_S4096x32_S64x64x32 (ix3 f c d)
      = (∑ t : Fin 128, rows (ix2 (row f c) t) * w (ix2 t d)) + b (ix1 d) := by
  refine (unflatten_apply _ shapeCasts_S4096x32_S64x64x32 f c d).trans ?_
  exact congrArg₂ (· + ·) (matmulRows32_apply rows w (row f c) d)
    (biasRow_apply b shapeCasts_S32_S1x32 broadcasts_S1x32_S4096x32 (row f c) d)

/-- The same into 128 features. -/
theorem proj128_apply (rows : FVec Ideal S4096x128 .bf16) (w : FVec Ideal S128x128 .bf16) (b : Vec Ideal S128 .f32)
    (f c : Fin 64) (u : Fin 128) :
    shapeCast S64x64x128 (addf (matmul dot_S4096x128_S128x128_S4096x128_1_0_0_1_n_n none rows w (constant (F := Ideal) S4096x128 .f32 0x00000000#32))
        (broadcastTo S4096x128 (shapeCast S1x128 b shapeCasts_S128_S1x128) broadcasts_S1x128_S4096x128)) shapeCasts_S4096x128_S64x64x128 (ix3 f c u)
      = (∑ t : Fin 128, rows (ix2 (row f c) t) * w (ix2 t u)) + b (ix1 u) := by
  refine (unflatten_apply _ shapeCasts_S4096x128_S64x64x128 f c u).trans ?_
  exact congrArg₂ (· + ·) (matmulRows128_apply rows w (row f c) u)
    (biasRow_apply b shapeCasts_S128_S1x128 broadcasts_S1x128_S4096x128 (row f c) u)

/-- Keys of the real rows: `Σ_t x c f t · w t d + b d`. -/
theorem pay8_apply (v : Vec Ideal S1x64x64x128 .f32) (w : Vec Ideal S128x32 .f32) (b : Vec Ideal S32 .f32)
    (f c : Fin 64) (d : Fin 32) :
    k0_pay8 v w b (ix3 f c d) = (∑ t : Fin 128, v (ix4 0 c f t) * w (ix2 t d)) + b (ix1 d) := by
  unfold k0_pay8
  refine (proj32_apply (k0_pay3 v) (k0_pay5 w) b f c d).trans ?_
  exact congrArg (· + b (ix1 d)) (Finset.sum_congr rfl fun t _ => by rw [pay3_apply, pay5_apply])

theorem pay9_apply (v : Vec Ideal S1x64x64x128 .f32) (w : Vec Ideal S128x32 .f32) (b : Vec Ideal S32 .f32)
    (f c : Fin 64) (d : Fin 32) :
    k0_pay9 v w b (ix3 f c d) = (∑ t : Fin 128, v (ix4 0 c f t) * w (ix2 t d)) + b (ix1 d) := by
  unfold k0_pay9
  refine (proj32_apply (k0_pay4 v) (k0_pay5 w) b f c d).trans ?_
  exact congrArg (· + b (ix1 d)) (Finset.sum_congr rfl fun t _ => by rw [pay4_apply, pay5_apply])

theorem pay10_apply (v : Vec Ideal S1x64x64x128 .f32) (w : Vec Ideal S128x32 .f32) (b : Vec Ideal S32 .f32)
    (f c : Fin 64) (d : Fin 32) :
    k0_pay10 v w b (ix3 f c d) = (∑ t : Fin 128, v (ix4 0 c f t) * w (ix2 t d)) + b (ix1 d) := by
  unfold k0_pay10
  refine (proj32_apply (k0_pay3 v) (k0_pay6 w) b f c d).trans ?_
  exact congrArg (· + b (ix1 d)) (Finset.sum_congr rfl fun t _ => by rw [pay3_apply, pay6_apply])

/-- Values, already narrowed for the last product (a change of float format only). -/
theorem pay14_apply (rows : FVec Ideal S4096x128 .bf16) (w : FVec Ideal S128x128 .bf16) (b : Vec Ideal S128 .f32)
    (f c : Fin 64) (u : Fin 128) :
    k0_pay14 rows w b (ix3 f c u) = (∑ t : Fin 128, rows (ix2 (row f c) t) * w (ix2 t u)) + b (ix1 u) := by
  unfold k0_pay14
  exact proj128_apply rows w b f c u

theorem pay15_apply (rows : FVec Ideal S4096x128 .bf16) (w : FVec Ideal S128x128 .bf16) (b : Vec Ideal S128 .f32)
    (f c : Fin 64) (u : Fin 128) :
    k0_pay15 rows w b (ix3 f c u) = (∑ t : Fin 128, rows (ix2 (row f c) t) * w (ix2 t u)) + b (ix1 u) := by
  unfold k0_pay15
  exact proj128_apply rows w b f c u

end Cert.KernelIdeal.Body

end
-- ==== Proof.KernelAttention.lean ====
/-
  The kernel body's second layer, each value read at one entry: the complex logits, the softmax down the channel axis, and
  the output products.

  The logits of the real and of the imaginary parts are packed side by side on 128 lanes, lane `e` holding the real
  logit of column `e` and lane `64 + e` the imaginary one, and ONE softmax over the channel axis is taken of the packed
  array: every lane is its own column, so each half is the softmax of its own logits. The weights are then read back
  from the two halves with their last two axes swapped, and multiplied into the values.
-/
import proofs.«180189_j62723702391454_2_alg».proof.Proof.KernelProjections

noncomputable section

namespace Cert.KernelIdeal.Body

open Cert.KernelIdeal Cert.KernelIdeal.Gen Cert.KernelIdeal.Products ChanAttn.Layout
open Idealize.ShloMosaic Idealize.ShloMosaic.ValueIdx

/-! ## The logits -/

/-- Keys against queries, batched over the bin: at (f, c, e) it is `Σ_d a f c d · b f e d`. -/
def kq (a b : FVec Ideal S64x64x32 .f32) : FVec Ideal S64x64x64 .f32 :=
  matmul dot_S64x64x32_S64x64x32_S64x64x64_2_2_1_1_0_0 none (truncf .bf16 a bitsLt_bf16_f32) (truncf .bf16 b bitsLt_bf16_f32) (constant (F := Ideal) S64x64x64 .f32 0x00000000#32)

theorem kq_apply (a b : FVec Ideal S64x64x32 .f32) (f c e : Fin 64) :
    kq a b (ix3 f c e) = ∑ d : Fin 32, a (ix3 f c d) * b (ix3 f e d) := by
  unfold kq
  exact matmulKQ_apply (truncf .bf16 a bitsLt_bf16_f32) (truncf .bf16 b bitsLt_bf16_f32) f c e

/-- Queries of the imaginary rows, as the body computes them in its second part. -/
def qImag (rows : FVec Ideal S4096x128 .bf16) (w : FVec Ideal S128x32 .bf16) (b : Vec Ideal S32 .f32) (z : FVec Ideal S4096x32 .f32) :
    FVec Ideal S64x64x32 .f32 :=
  shapeCast S64x64x32 (addf (matmul dot_S4096x128_S128x32_S4096x32_1_0_0_1_n_n none rows w z)
    (broadcastTo S4096x32 (shapeCast S1x32 b shapeCasts_S32_S1x32) broadcasts_S1x32_S4096x32)) shapeCasts_S4096x32_S64x64x32

theorem qImag_apply (rows : FVec Ideal S4096x128 .bf16) (w : FVec Ideal S128x32 .bf16) (b : Vec Ideal S32 .f32) (f c : Fin 64) (d : Fin 32) :
    qImag rows w b (constant (F := Ideal) S4096x32 .f32 0x00000000#32) (ix3 f c d) = (∑ t : Fin 128, rows (ix2 (row f c) t) * w (ix2 t d)) + b (ix1 d) := by
  unfold qImag
  exact proj32_apply rows w b f c d

/-- The packed logits: real parts `kr·qr − ki·qi` on lanes 0 … 63, imaginary parts `kr·qi + ki·qr` on lanes 64 … 127. -/
def logits (kr ki qr qi : FVec Ideal S64x64x32 .f32) : FVec Ideal S64x64x128 .f32 :=
  concatenate S64x64x128 2 [⟨S64x64x64, subf (kq kr qr) (kq ki qi)⟩, ⟨S64x64x64, addf (kq kr qi) (kq ki qr)⟩]
    concatenates_S64x64x64_S64x64x64_S64x64x128_d2

theorem logits_re (kr ki qr qi : FVec Ideal S64x64x32 .f32) (f c e : Fin 64) :
    logits kr ki qr qi (ix3 f c (ChanAttn.re e))
      = (∑ d : Fin 32, kr (ix3 f c d) * qr (ix3 f e d)) - (∑ d : Fin 32, ki (ix3 f c d) * qi (ix3 f e d)) := by
  unfold logits
  refine (lanePack_left (subf (kq kr qr) (kq ki qi)) (addf (kq kr qi) (kq ki qr))
    concatenates_S64x64x64_S64x64x64_S64x64x128_d2 f c e (ChanAttn.re e) rfl).trans ?_
  exact congrArg₂ (· - ·) (kq_apply kr qr f c e) (kq_apply ki qi f c e)

theorem logits_im (kr ki qr qi : FVec Ideal S64x64x32 .f32) (f c e : Fin 64) :
    logits kr ki qr qi (ix3 f c (ChanAttn.im e))
      = (∑ d : Fin 32, kr (ix3 f c d) * qi (ix3 f e d)) + (∑ d : Fin 32, ki (ix3 f c d) * qr (ix3 f e d)) := by
  unfold logits
  refine (lanePack_right (subf (kq kr qr) (kq ki qi)) (addf (kq kr qi) (kq ki qr))
    concatenates_S64x64x64_S64x64x64_S64x64x128_d2 f c e (ChanAttn.im e) rfl).trans ?_
  exact congrArg₂ (· + ·) (kq_apply kr qi f c e) (kq_apply ki qr f c e)

/-! ## The softmax down the channel axis -/

/-- The column maxima, taken from −∞ and met with −∞ once more. -/
def colMaxVec (p : FVec Ideal S64x64x128 .f32) : FVec Ideal S64x128 .f32 :=
  maximumf (broadcast S64x128 (Scalar.ofBits (F := Ideal) .f32 0xFF800000#32))
    (multiReduction .maximumf [1] S64x128 p 0xFF800000#32 reduces_S64x64x128_S64x128 (.inl rfl) rfl)

theorem colMaxVec_apply (p : FVec Ideal S64x64x128 .f32) (f : Fin 64) (j : Fin 128) :
    colMaxVec p (ix2 f j) = ChanAttn.colMax (fun k => p (ix3 f k j)) := by
  unfold colMaxVec ChanAttn.colMax
  exact congrArg (max (Ideal.ofBits .f32 0xFF800000#32))
    (maxMid_apply p 0xFF800000#32 reduces_S64x64x128_S64x128 (.inl rfl) rfl f j)

/-- The exponentials of the max-shifted logits. -/
def shifted (p : FVec Ideal S64x64x128 .f32) : FVec Ideal S64x64x128 .f32 :=
  exp (subf p (broadcastTo S64x64x128 (shapeCast S64x1x128 (colMaxVec p) shapeCasts_S64x128_S64x1x128) broadcasts_S64x1x128_S64x64x128))

theorem shifted_apply (p : FVec Ideal S64x64x128 .f32) (f c : Fin 64) (j : Fin 128) :
    shifted p (ix3 f c j) = Ideal.exp (p (ix3 f c j) - ChanAttn.colMax (fun k => p (ix3 f k j))) := by
  unfold shifted
  exact congrArg (fun z => Ideal.exp (p (ix3 f c j) - z))
    ((keepMid_apply (colMaxVec p) shapeCasts_S64x128_S64x1x128 broadcasts_S64x1x128_S64x64x128 f c j).trans (colMaxVec_apply p f j))

/-- The softmax: each shifted exponential over its column's sum. -/
def softmaxMid (p : FVec Ideal S64x64x128 .f32) : FVec Ideal S64x64x128 .f32 :=
  divf (shifted p) (broadcastTo S64x64x128 (shapeCast S64x1x128
    (multiReduction .add [1] S64x128 (shifted p) 0x00000000#32 reduces_S64x64x128_S64x128 (.inl rfl) rfl)
    shapeCasts_S64x128_S64x1x128) broadcasts_S64x1x128_S64x64x128)

theorem softmaxMid_apply (p : FVec Ideal S64x64x128 .f32) (f c : Fin 64) (j : Fin 128) :
    softmaxMid p (ix3 f c j) = ChanAttn.softCol (fun k => p (ix3 f k j)) c := by
  unfold softmaxMid ChanAttn.softCol
  refine congrArg₂ Ideal.div (shifted_apply p f c j) ?_
  refine (keepMid_apply _ shapeCasts_S64x128_S64x1x128 broadcasts_S64x1x128_S64x64x128 f c j).trans ?_
  refine (sumMid_apply (shifted p) 0x00000000#32 reduces_S64x64x128_S64x128 (.inl rfl) rfl f j).trans ?_
  exact Finset.sum_congr rfl fun k _ => shifted_apply p f k j

/-- The body's softmax weights are the softmax of its packed logits. -/
theorem pay11_eq (v9 : FVec Ideal S4096x128 .bf16) (v15 : FVec Ideal S128x32 .bf16) (v20 : Vec Ideal S32 .f32)
    (v26 v31 v36 : FVec Ideal S64x64x32 .f32) (cst_17 : FVec Ideal S4096x32 .f32) :
    k0_pay11 v9 v15 v20 v26 v31 v36 cst_17 = softmaxMid (logits v26 v31 v36 (qImag v9 v15 v20 cst_17)) := rfl

/-- A 64-lane window of the weights, its last two axes swapped (and narrowed): at (f, e, c) the weight at (f, c, o + e). -/
theorem swapWindow_apply (w : FVec Ideal S64x64x128 .f32) (o : ℕ) (hs : S64x64x128.Slices ![0, 0, o] S64x64x64)
    (f e c : Fin 64) (k' : Fin 128) (hk : k'.val = o + e.val) :
    truncf .bf16 (transpose S64x64x64 [0, 2, 1] (extractStridedSlice S64x64x64 ![0, 0, o] w hs)
        transposes_S64x64x64_p0_2_1_S64x64x64) bitsLt_bf16_f32 (ix3 f e c) = w (ix3 f c k') := by
  refine (transpose_ix3_021_apply (extractStridedSlice S64x64x64 ![0, 0, o] w hs)
    transposes_S64x64x64_p0_2_1_S64x64x64 f e c).trans ?_
  exact laneSlice_apply o w hs f c e k' hk

/-- The real half of the weights with its last two axes swapped: at (f, e, c) the weight at (f, c, lane e). -/
theorem pay12_apply (v9 : FVec Ideal S4096x128 .bf16) (v15 : FVec Ideal S128x32 .bf16) (v20 : Vec Ideal S32 .f32)
    (v26 v31 v36 : FVec Ideal S64x64x32 .f32) (cst_17 : FVec Ideal S4096x32 .f32) (f e c : Fin 64) :
    k0_pay12 v9 v15 v20 v26 v31 v36 cst_17 (ix3 f e c) = k0_pay11 v9 v15 v20 v26 v31 v36 cst_17 (ix3 f c (ChanAttn.re e)) := by
  unfold k0_pay12
  exact swapWindow_apply (k0_pay11 v9 v15 v20 v26 v31 v36 cst_17) 0 slices_S64x64x128_o0_0_0_S64x64x64 f e c (ChanAttn.re e)
    (by show e.val = 0 + e.val; omega)

/-- The imaginary half likewise: at (f, e, c) the weight at (f, c, lane 64 + e). -/
theorem pay13_apply (v9 : FVec Ideal S4096x128 .bf16) (v15 : FVec Ideal S128x32 .bf16) (v20 : Vec Ideal S32 .f32)
    (v26 v31 v36 : FVec Ideal S64x64x32 .f32) (cst_17 : FVec Ideal S4096x32 .f32) (f e c : Fin 64) :
    k0_pay13 v9 v15 v20 v26 v31 v36 cst_17 (ix3 f e c) = k0_pay11 v9 v15 v20 v26 v31 v36 cst_17 (ix3 f c (ChanAttn.im e)) := by
  unfold k0_pay13
  exact swapWindow_apply (k0_pay11 v9 v15 v20 v26 v31 v36 cst_17) 64 slices_S64x64x128_o0_0_64_S64x64x64 f e c (ChanAttn.im e) rfl

/-! ## The output products -/

/-- Real part of the output before it is laid out: `Σ_c wR f e c · vR f c u − Σ_c wI f e c · vI f c u`. -/
theorem pay16_apply (v7 v9 : FVec Ideal S4096x128 .bf16) (v15 : FVec Ideal S128x32 .bf16) (v18 : FVec Ideal S128x128 .bf16)
    (v20 : Vec Ideal S32 .f32) (v21 : Vec Ideal S128 .f32) (v26 v31 v36 : FVec Ideal S64x64x32 .f32) (cst_17 : FVec Ideal S4096x32 .f32)
    (f e : Fin 64) (u : Fin 128) :
    k0_pay16 v7 v9 v15 v18 v20 v21 v26 v31 v36 cst_17 (ix3 f e u)
      = (∑ c : Fin 64, k0_pay12 v9 v15 v20 v26 v31 v36 cst_17 (ix3 f e c) * k0_pay14 v7 v18 v21 (ix3 f c u))
        - (∑ c : Fin 64, k0_pay13 v9 v15 v20 v26 v31 v36 cst_17 (ix3 f e c) * k0_pay15 v9 v18 v21 (ix3 f c u)) := by
  unfold k0_pay16
  exact congrArg₂ (· - ·)
    (matmulWV_apply (k0_pay12 v9 v15 v20 v26 v31 v36 cst_17) (k0_pay14 v7 v18 v21) f e u)
    (matmulWV_apply (k0_pay13 v9 v15 v20 v26 v31 v36 cst_17) (k0_pay15 v9 v18 v21) f e u)

/-- The real part laid out for the store: the two leading axes swapped back, under a unit axis. -/
theorem pay1_apply (v84 : FVec Ideal S64x64x128 .f32) (e f : Fin 64) (u : Fin 128) :
    k0_pay1 v84 (ix4 0 e f u) = v84 (ix3 f e u) := by
  unfold k0_pay1
  refine (shapeCast_abc_1abc_apply (transpose S64x64x128 [1, 0, 2] v84 transposes_S64x64x128_p1_0_2_S64x64x128)
    shapeCasts_S64x64x128_S1x64x64x128 0 e f u).trans ?_
  exact swapLead_apply v84 transposes_S64x64x128_p1_0_2_S64x64x128 e f u

/-- The imaginary part, product and layout in one payload: `Σ_c wI f e c · vR f c u + Σ_c wR f e c · vI f c u`. -/
theorem pay2_apply (v78 v79 : FVec Ideal S64x64x64 .bf16) (v80 v81 : FVec Ideal S64x64x128 .bf16) (e f : Fin 64) (u : Fin 128) :
    k0_pay2 v78 v79 v80 v81 (constant (F := Ideal) S64x64x128 .f32 0x00000000#32) (ix4 0 e f u)
      = (∑ c : Fin 64, v79 (ix3 f e c) * v80 (ix3 f c u)) + (∑ c : Fin 64, v78 (ix3 f e c) * v81 (ix3 f c u)) := by
  unfold k0_pay2
  refine (shapeCast_abc_1abc_apply (transpose S64x64x128 [1, 0, 2]
    (addf (matmul dot_S64x64x64_S64x64x128_S64x64x128_2_1_1_2_0_0 none v79 v80 (constant (F := Ideal) S64x64x128 .f32 0x00000000#32)) (matmul dot_S64x64x64_S64x64x128_S64x64x128_2_1_1_2_0_0 none v78 v81 (constant (F := Ideal) S64x64x128 .f32 0x00000000#32)))
    transposes_S64x64x128_p1_0_2_S64x64x128) shapeCasts_S64x64x128_S1x64x64x128 0 e f u).trans ?_
  refine (swapLead_apply (addf (matmul dot_S64x64x64_S64x64x128_S64x64x128_2_1_1_2_0_0 none v79 v80 (constant (F := Ideal) S64x64x128 .f32 0x00000000#32)) (matmul dot_S64x64x64_S64x64x128_S64x64x128_2_1_1_2_0_0 none v78 v81 (constant (F := Ideal) S64x64x128 .f32 0x00000000#32)))
    transposes_S64x64x128_p1_0_2_S64x64x128 e f u).trans ?_
  exact congrArg₂ (· + ·) (matmulWV_apply v79 v80 f e u) (matmulWV_apply v78 v81 f e u)

end Cert.KernelIdeal.Body

end
-- ==== Proof.KernelBlock.lean ====
/-
  What the body leaves in the output block is the block function of the specification.

  The body stores two pieces: output channels 0 … 63 (the real parts) through the rectangle at channel offset 0, and output
  channels 64 … 127 (the imaginary parts) through the rectangle at channel offset 64. At an entry (0, e, f, t) of either
  piece the stored value is the slice function of the input block's slice at bin `f`: the projections are the
  specification's `k q v` of that slice, the packed logits' two halves are its `pR pI`, the softmax of a lane is the
  softmax of that column, and the two output products are its `oR oI`.
-/
import proofs.«180189_j62723702391454_2_alg».proof.Proof.Gen.KernelIdeal.Frame
import proofs.«180189_j62723702391454_2_alg».proof.Proof.KernelAttention

noncomputable section

namespace Cert.KernelIdeal.Body

open Cert.KernelIdeal Cert.KernelIdeal.Gen Cert.KernelIdeal.Products ChanAttn.Layout
open Idealize.ShloMosaic Idealize.ShloMosaic.ValueIdx

/-! ## Where the two rectangles place an entry, and what a load through them reads -/

theorem hz1 : (![0] : Fin 1 → ℕ) = fun _ => 0 := by funext a; match a with | ⟨0, _⟩ => rfl
theorem hz2 : (![0, 0] : Fin 2 → ℕ) = fun _ => 0 := by funext a; match a with | ⟨0, _⟩ => rfl | ⟨1, _⟩ => rfl

theorem emb_re (e f : Fin 64) (t : Fin 128) :
    r0_0.emb (ix4 (0 : Fin 1) e f t : S1x64x64x128.Idx) = ix4 0 (ChanAttn.re e) f t := by
  funext a; apply Fin.ext
  match a with
  | ⟨0, _⟩ => rfl
  | ⟨1, _⟩ => show 0 + 1 * e.val = e.val; omega
  | ⟨2, _⟩ => show 0 + 1 * f.val = f.val; omega
  | ⟨3, _⟩ => show 0 + 1 * t.val = t.val; omega

theorem emb_im (e f : Fin 64) (t : Fin 128) :
    r0_1.emb (ix4 (0 : Fin 1) e f t : S1x64x64x128.Idx) = ix4 0 (ChanAttn.im e) f t := by
  funext a; apply Fin.ext
  match a with
  | ⟨0, _⟩ => rfl
  | ⟨1, _⟩ => show 64 + 1 * e.val = 64 + e.val; omega
  | ⟨2, _⟩ => show 0 + 1 * f.val = f.val; omega
  | ⟨3, _⟩ => show 0 + 1 * t.val = t.val; omega

section Block

variable (x0 : Vec Ideal S1x128x64x128 .f32) (x1 : Vec Ideal S128x32 .f32) (x2 : Vec Ideal S32 .f32)
  (x3 : Vec Ideal S128x32 .f32) (x4 : Vec Ideal S32 .f32) (x5 : Vec Ideal S128x128 .f32) (x6 : Vec Ideal S128 .f32)

theorem ld_re (c f : Fin 64) (t : Fin 128) : View.ld x0 r0_0 (ix4 (0 : Fin 1) c f t) = x0 (ix4 0 (ChanAttn.re c) f t) :=
  congrArg x0 (emb_re c f t)
theorem ld_im (c f : Fin 64) (t : Fin 128) : View.ld x0 r0_1 (ix4 (0 : Fin 1) c f t) = x0 (ix4 0 (ChanAttn.im c) f t) :=
  congrArg x0 (emb_im c f t)
theorem ld_w32 (w : Vec Ideal S128x32 .f32) : View.ld w r0_2 = w := View.ld_unit_zero (S := S128x32) hz2 _ w
theorem ld_w128 : View.ld x5 r0_3 = x5 := View.ld_unit_zero (S := S128x128) hz2 _ x5
theorem ld_b32 (b : Vec Ideal S32 .f32) : View.ld b r0_4 = b := View.ld_unit_zero (S := S32) hz1 _ b
theorem ld_b128 : View.ld x6 r0_5 = x6 := View.ld_unit_zero (S := S128) hz1 _ x6

/-! ## The specification's arguments, read off the blocks -/

/-- The input block's slice at bin `f`: channel, time. -/
abbrev Xs (f : Fin 64) : Fin 128 → Fin 128 → EReal := fun ch t => x0 (ix4 0 ch f t)
/-- A transposed `[128, 32]` weight block read feature first. -/
abbrev Wt (w : Vec Ideal S128x32 .f32) : Fin 32 → Fin 128 → EReal := fun d t => w (ix2 t d)
abbrev Bs (b : Vec Ideal S32 .f32) : Fin 32 → EReal := fun d => b (ix1 d)
abbrev Wvt : Fin 128 → Fin 128 → EReal := fun u t => x5 (ix2 t u)
abbrev Bvs : Fin 128 → EReal := fun u => x6 (ix1 u)

/-! ## The values the body's second part is called with -/

abbrev rowsR := k0_pay3 (View.ld x0 r0_0)
abbrev rowsI := k0_pay4 (View.ld x0 r0_1)
abbrev keysR := k0_pay8 (View.ld x0 r0_0) (View.ld x1 r0_2) (View.ld x2 r0_4)
abbrev keysI := k0_pay9 (View.ld x0 r0_1) (View.ld x1 r0_2) (View.ld x2 r0_4)
abbrev queriesR := k0_pay10 (View.ld x0 r0_0) (View.ld x3 r0_2) (View.ld x4 r0_4)
abbrev queriesI := qImag (rowsI x0) (k0_pay6 (View.ld x3 r0_2)) (View.ld x4 r0_4) (constant (F := Ideal) S4096x32 .f32 0x00000000#32)
abbrev weights := k0_pay11 (rowsI x0) (k0_pay6 (View.ld x3 r0_2)) (View.ld x4 r0_4) (keysR x0 x1 x2) (keysI x0 x1 x2) (queriesR x0 x3 x4) (constant (F := Ideal) S4096x32 .f32 0x00000000#32)

theorem rowsR_apply (f c : Fin 64) (t : Fin 128) : rowsR x0 (ix2 (row f c) t) = Xs x0 f (ChanAttn.re c) t :=
  (pay3_apply _ f c t).trans (ld_re x0 c f t)
theorem rowsI_apply (f c : Fin 64) (t : Fin 128) : rowsI x0 (ix2 (row f c) t) = Xs x0 f (ChanAttn.im c) t :=
  (pay4_apply _ f c t).trans (ld_im x0 c f t)

theorem keysR_apply (f c : Fin 64) (d : Fin 32) : keysR x0 x1 x2 (ix3 f c d) = ChanAttn.kR (Xs x0 f) (Wt x1) (Bs x2) c d := by
  refine (pay8_apply _ _ _ f c d).trans ?_
  rw [ld_w32, ld_b32]
  exact congrArg (· + x2 (ix1 d)) (Finset.sum_congr rfl fun t _ => congrArg (· * x1 (ix2 t d)) (ld_re x0 c f t))

theorem keysI_apply (f c : Fin 64) (d : Fin 32) : keysI x0 x1 x2 (ix3 f c d) = ChanAttn.kI (Xs x0 f) (Wt x1) (Bs x2) c d := by
  refine (pay9_apply _ _ _ f c d).trans ?_
  rw [ld_w32, ld_b32]
  exact congrArg (· + x2 (ix1 d)) (Finset.sum_congr rfl fun t _ => congrArg (· * x1 (ix2 t d)) (ld_im x0 c f t))

theorem queriesR_apply (f c : Fin 64) (d : Fin 32) : queriesR x0 x3 x4 (ix3 f c d) = ChanAttn.qR (Xs x0 f) (Wt x3) (Bs x4) c d := by
  refine (pay10_apply _ _ _ f c d).trans ?_
  rw [ld_w32, ld_b32]
  exact congrArg (· + x4 (ix1 d)) (Finset.sum_congr rfl fun t _ => congrArg (· * x3 (ix2 t d)) (ld_re x0 c f t))

theorem queriesI_apply (f c : Fin 64) (d : Fin 32) : queriesI x0 x3 x4 (ix3 f c d) = ChanAttn.qI (Xs x0 f) (Wt x3) (Bs x4) c d := by
  refine (qImag_apply _ _ _ f c d).trans ?_
  rw [ld_w32, ld_b32]
  exact congrArg (· + x4 (ix1 d)) (Finset.sum_congr rfl fun t _ => by rw [rowsI_apply, pay6_apply])

theorem valuesR_apply (f c : Fin 64) (u : Fin 128) :
    k0_pay14 (rowsR x0) (k0_pay7 (View.ld x5 r0_3)) (View.ld x6 r0_5) (ix3 f c u) = ChanAttn.vR (Xs x0 f) (Wvt x5) (Bvs x6) c u := by
  refine (pay14_apply _ _ _ f c u).trans ?_
  rw [ld_w128, ld_b128]
  exact congrArg (· + x6 (ix1 u)) (Finset.sum_congr rfl fun t _ => by rw [rowsR_apply, pay7_apply])

theorem valuesI_apply (f c : Fin 64) (u : Fin 128) :
    k0_pay15 (rowsI x0) (k0_pay7 (View.ld x5 r0_3)) (View.ld x6 r0_5) (ix3 f c u) = ChanAttn.vI (Xs x0 f) (Wvt x5) (Bvs x6) c u := by
  refine (pay15_apply _ _ _ f c u).trans ?_
  rw [ld_w128, ld_b128]
  exact congrArg (· + x6 (ix1 u)) (Finset.sum_congr rfl fun t _ => by rw [rowsI_apply, pay7_apply])

/-- The real lanes of the softmax are the softmax of the real logits' columns. -/
theorem weights_re (f c e : Fin 64) :
    weights x0 x1 x2 x3 x4 (ix3 f c (ChanAttn.re e)) = ChanAttn.wR (Xs x0 f) (Wt x1) (Wt x3) (Bs x2) (Bs x4) c e := by
  refine (congrFun (pay11_eq _ _ _ _ _ _ _) _).trans ?_
  refine (softmaxMid_apply _ f c (ChanAttn.re e)).trans ?_
  unfold ChanAttn.wR
  refine congrArg (fun p => ChanAttn.softCol p c) (funext fun k => ?_)
  refine (logits_re _ _ _ _ f k e).trans ?_
  unfold ChanAttn.pR
  exact congrArg₂ (· - ·)
    (Finset.sum_congr rfl fun d _ => congrArg₂ (· * ·) (keysR_apply x0 x1 x2 f k d) (queriesR_apply x0 x3 x4 f e d))
    (Finset.sum_congr rfl fun d _ => congrArg₂ (· * ·) (keysI_apply x0 x1 x2 f k d) (queriesI_apply x0 x3 x4 f e d))

/-- The imaginary lanes are the softmax of the imaginary logits' columns. -/
theorem weights_im (f c e : Fin 64) :
    weights x0 x1 x2 x3 x4 (ix3 f c (ChanAttn.im e)) = ChanAttn.wI (Xs x0 f) (Wt x1) (Wt x3) (Bs x2) (Bs x4) c e := by
  refine (congrFun (pay11_eq _ _ _ _ _ _ _) _).trans ?_
  refine (softmaxMid_apply _ f c (ChanAttn.im e)).trans ?_
  unfold ChanAttn.wI
  refine congrArg (fun p => ChanAttn.softCol p c) (funext fun k => ?_)
  refine (logits_im _ _ _ _ f k e).trans ?_
  unfold ChanAttn.pI
  exact congrArg₂ (· + ·)
    (Finset.sum_congr rfl fun d _ => congrArg₂ (· * ·) (keysR_apply x0 x1 x2 f k d) (queriesI_apply x0 x3 x4 f e d))
    (Finset.sum_congr rfl fun d _ => congrArg₂ (· * ·) (keysI_apply x0 x1 x2 f k d) (queriesR_apply x0 x3 x4 f e d))

/-! ## The two stored pieces -/

/-- The piece stored on channels 0 … 63 is the real part of the output. -/
theorem piece_re (e f : Fin 64) (t : Fin 128) :
    k0_pay1 (k0_pay16 (rowsR x0) (rowsI x0) (k0_pay6 (View.ld x3 r0_2)) (k0_pay7 (View.ld x5 r0_3)) (View.ld x4 r0_4) (View.ld x6 r0_5)
        (keysR x0 x1 x2) (keysI x0 x1 x2) (queriesR x0 x3 x4) (constant (F := Ideal) S4096x32 .f32 0x00000000#32)) (ix4 0 e f t)
      = ChanAttn.oR (Xs x0 f) (Wt x1) (Wt x3) (Bs x2) (Bs x4) (Wvt x5) (Bvs x6) e t := by
  refine (pay1_apply _ e f t).trans ?_
  refine (pay16_apply _ _ _ _ _ _ _ _ _ _ f e t).trans ?_
  unfold ChanAttn.oR
  exact congrArg₂ (· - ·)
    (Finset.sum_congr rfl fun c _ => by rw [pay12_apply, valuesR_apply]; exact congrArg (· * _) (weights_re x0 x1 x2 x3 x4 f c e))
    (Finset.sum_congr rfl fun c _ => by rw [pay13_apply, valuesI_apply]; exact congrArg (· * _) (weights_im x0 x1 x2 x3 x4 f c e))

/-- The piece stored on channels 64 … 127 is the imaginary part of the output. -/
theorem piece_im (e f : Fin 64) (t : Fin 128) :
    k0_pay2 (k0_pay12 (rowsI x0) (k0_pay6 (View.ld x3 r0_2)) (View.ld x4 r0_4) (keysR x0 x1 x2) (keysI x0 x1 x2) (queriesR x0 x3 x4) (constant (F := Ideal) S4096x32 .f32 0x00000000#32))
        (k0_pay13 (rowsI x0) (k0_pay6 (View.ld x3 r0_2)) (View.ld x4 r0_4) (keysR x0 x1 x2) (keysI x0 x1 x2) (queriesR x0 x3 x4) (constant (F := Ideal) S4096x32 .f32 0x00000000#32))
        (k0_pay14 (rowsR x0) (k0_pay7 (View.ld x5 r0_3)) (View.ld x6 r0_5)) (k0_pay15 (rowsI x0) (k0_pay7 (View.ld x5 r0_3)) (View.ld x6 r0_5))
        (constant (F := Ideal) S64x64x128 .f32 0x00000000#32) (ix4 0 e f t)
      = ChanAttn.oI (Xs x0 f) (Wt x1) (Wt x3) (Bs x2) (Bs x4) (Wvt x5) (Bvs x6) e t := by
  refine (pay2_apply _ _ _ _ e f t).trans ?_
  unfold ChanAttn.oI
  exact congrArg₂ (· + ·)
    (Finset.sum_congr rfl fun c _ => by rw [pay13_apply, valuesR_apply]; exact congrArg (· * _) (weights_im x0 x1 x2 x3 x4 f c e))
    (Finset.sum_congr rfl fun c _ => by rw [pay12_apply, valuesI_apply]; exact congrArg (· * _) (weights_re x0 x1 x2 x3 x4 f c e))

/-! ## The block -/

/-- What the body leaves in the output block: the specification's block function of the input blocks. -/
theorem out0_7_eq : out0_7 x0 x1 x2 x3 x4 x5 x6 = ChanAttn.block x0 x1 x2 x3 x4 x5 x6 := by
  funext y
  unfold out0_7
  refine View.canon_apply_of_pieces (Val := Elt Ideal) (S := S1x128x64x128) (e := .f32)
    (ChanAttn.block x0 x1 x2 x3 x4 x5 x6 : S1x128x64x128.Idx → Elt Ideal .f32) _ ?_ y (cover0_7 _ _ y)
  intro p hp
  rcases List.mem_cons.mp hp with rfl | hp
  · intro x
    obtain ⟨u, e, f, t, rfl⟩ : ∃ (u : Fin 1) (e f : Fin 64) (t : Fin 128), x = (ix4 u e f t : S1x64x64x128.Idx) :=
      ⟨x 0, x 1, x 2, x 3, eq_ix4 (n0 := 1) (n1 := 64) (n2 := 64) (n3 := 128) x⟩
    obtain rfl : u = 0 := Subsingleton.elim _ _
    refine (piece_im x0 x1 x2 x3 x4 x5 x6 e f t).trans ?_
    show _ = ChanAttn.block x0 x1 x2 x3 x4 x5 x6 (r0_1.emb (ix4 (0 : Fin 1) e f t : S1x64x64x128.Idx))
    rw [emb_im]
    exact (ChanAttn.out_im _ _ _ _ _ _ _ e t).symm
  · obtain rfl := List.mem_singleton.mp hp
    intro x
    obtain ⟨u, e, f, t, rfl⟩ : ∃ (u : Fin 1) (e f : Fin 64) (t : Fin 128), x = (ix4 u e f t : S1x64x64x128.Idx) :=
      ⟨x 0, x 1, x 2, x 3, eq_ix4 (n0 := 1) (n1 := 64) (n2 := 64) (n3 := 128) x⟩
    obtain rfl : u = 0 := Subsingleton.elim _ _
    refine (piece_re x0 x1 x2 x3 x4 x5 x6 e f t).trans ?_
    show _ = ChanAttn.block x0 x1 x2 x3 x4 x5 x6 (r0_0.emb (ix4 (0 : Fin 1) e f t : S1x64x64x128.Idx))
    rw [emb_re]
    exact (ChanAttn.out_re _ _ _ _ _ _ _ e t).symm

end Block

end Cert.KernelIdeal.Body

end
-- ==== Proof.KernelWhole.lean ====
/-
  From blocks to the array: after the kernel's run the result array is the specification's whole array.

  The grid has 8 × 4 points; point (b, q) is handed batch entry `b`'s bins `64·q … 64·q + 63` of the input (all channels, all
  times) and writes the same block of the result; the weights and biases are handed whole at every point, the weights as
  the transposes the program takes before the launch. So what point (b, q) writes back, the block function of its input
  blocks, is block (b, q) of the whole-array function of the argument arrays: an entry (b, ch, 64·q + f, t) of the whole
  array depends only on the input's slice at (b, 64·q + f), which is the block's slice at `f`. The 32 blocks tile the
  result array, so it ends holding the whole-array function.
-/
import proofs.«180189_j62723702391454_2_alg».proof.Proof.Gen.KernelIdeal.Value
import proofs.«180189_j62723702391454_2_alg».proof.Proof.KernelBlock
import Idealize.ShloMosaic.Lib.StableHlo.Run
import Idealize.ShloMosaic.Lib.ValueLayout

noncomputable section

namespace Cert.KernelIdeal.Whole

open Cert.KernelIdeal Cert.KernelIdeal.Gen Cert.KernelIdeal.Body
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The arrays the region finds -/

/-- The key weights as the region finds them: the transpose the program takes first. -/
theorem V_main_v0 (c : Dev nD) :
    (V m c main_v0 : S128x32.Idx → EReal) = transpose S128x32 [1, 0] (m ((c : Thread nD τ).loc main_arg1)) transposes_S32x128_S128x32_1_0 := by
  dsimp only [Gen.V, Gen.hostOps0]; after_results

theorem V_main_v1 (c : Dev nD) :
    (V m c main_v1 : S128x32.Idx → EReal) = transpose S128x32 [1, 0] (m ((c : Thread nD τ).loc main_arg3)) transposes_S32x128_S128x32_1_0 := by
  dsimp only [Gen.V, Gen.hostOps0]; after_results

theorem V_main_v2 (c : Dev nD) :
    (V m c main_v2 : S128x128.Idx → EReal) = transpose S128x128 [1, 0] (m ((c : Thread nD τ).loc main_arg5)) transposes_S128x128_S128x128_1_0 := by
  dsimp only [Gen.V, Gen.hostOps0]; after_results

/-! ## The index maps, decided over the 32 grid points -/

/-- The input's and the result's blocks move together, on the batch axis and the bin axis only; every other window is
    handed its whole array. -/
theorem idx_facts : ∀ t : Fin cfg0.N,
    win0_0.index t (0 : Fin 4) = win0_7.index t (0 : Fin 4) ∧ win0_0.index t (1 : Fin 4) = 0
    ∧ win0_0.index t (2 : Fin 4) = win0_7.index t (2 : Fin 4) ∧ win0_0.index t (3 : Fin 4) = 0
    ∧ win0_7.index t (1 : Fin 4) = 0 ∧ win0_7.index t (3 : Fin 4) = 0
    ∧ win0_7.index t (0 : Fin 4) ≤ 7 ∧ win0_7.index t (2 : Fin 4) ≤ 3
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-- Every (batch entry, bin block) is some point's. -/
theorem idx_onto : ∀ (q0 : Fin 8) (q2 : Fin 4), ∃ t : Fin cfg0.N, win0_7.index t = ![q0.val, 0, q2.val, 0] :=
  (by decide +kernel : ∀ (q0 : Fin 8) (q2 : Fin 4), ∃ t : Fin grid0.N, win0_7.index t = ![q0.val, 0, q2.val, 0])

/-! ## The whole-array function of the argument arrays -/

/-- The result array the specification gives for the argument arrays as launched. -/
abbrev result (c : Dev nD) : Buf (Elt Ideal) ((c : Thread nD τ).loc main_v3) :=
  ChanAttn.whole (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## What a point writes back -/

/-- A window handed its whole array at every point reads the array itself (rank 2). -/
theorem whole2_apply {a b : ℕ} (X : (⟨2, ![a, b]⟩ : Shape).Idx → EReal) (k : (⟨2, ![a, b]⟩ : Shape).Idx) (i0 i1 : ℕ) (h0 : i0 = 0) (h1 : i1 = 0)
    (y : (⟨2, ![a, b]⟩ : Shape).Idx) (hk : ∀ d : Fin 2, (k d).val = (![i0, i1] d) * (![a, b] d) + 1 * (y d).val) : X k = X y := by
  subst h0 h1
  refine congrArg X (funext fun d => Fin.ext ?_)
  have := hk d
  match d with
  | ⟨0, _⟩ => simpa using this
  | ⟨1, _⟩ => simpa using this

/-- … and at rank 1. -/
theorem whole1_apply {a : ℕ} (X : (⟨1, ![a]⟩ : Shape).Idx → EReal) (k : (⟨1, ![a]⟩ : Shape).Idx) (i0 : ℕ) (h0 : i0 = 0)
    (y : (⟨1, ![a]⟩ : Shape).Idx) (hk : ∀ d : Fin 1, (k d).val = (![i0] d) * (![a] d) + 1 * (y d).val) : X k = X y := by
  subst h0
  refine congrArg X (funext fun d => Fin.ext ?_)
  have := hk d
  match d with
  | ⟨0, _⟩ => simpa using this

/-- WHAT POINT `t` WRITES BACK is block `t` of the whole-array function of the argument arrays. -/
theorem flushed_eq (c : Dev nD) (t : Fin cfg0.N) :
    (dats m 0 c).flushed 7 t = ((cfg0.win 7).blk t).view.read (Elt Ideal) (result m c) := by
  rw [Value.flushed7, out0_7_eq]
  obtain ⟨e00, e01, e02, e03, e71, e73, b70, b72, e10, e11, e20, e30, e31, e40, e50, e51, e60⟩ := idx_facts t
  funext j
  obtain ⟨u0, ch, fl, u, rfl⟩ : ∃ (u0 : Fin 1) (ch : Fin 128) (fl : Fin 64) (u : Fin 128), j = (ix4 u0 ch fl u : S1x128x64x128.Idx) :=
    ⟨j 0, j 1, j 2, j 3, eq_ix4 (n0 := 1) (n1 := 128) (n2 := 64) (n3 := 128) j⟩
  have hu0 : u0.val = 0 := by omega
  -- the array entry this block entry lands on
  show ChanAttn.block (iblk m c 0 t) (iblk m c 1 t) (iblk m c 2 t) (iblk m c 3 t) (iblk m c 4 t) (iblk m c 5 t) (iblk m c 6 t)
      (ix4 u0 ch fl u : S1x128x64x128.Idx)
    = result m c (((cfg0.win 7).blk t).view.emb (ix4 u0 ch fl u : S1x128x64x128.Idx) : S8x128x256x128.Idx)
  generalize hi : (((cfg0.win 7).blk t).view.emb (ix4 u0 ch fl u : S1x128x64x128.Idx) : S8x128x256x128.Idx) = i
  have i0 : (i 0).val = win0_7.index t (0 : Fin 4) * 1 + 1 * u0.val := by rw [← hi]; rfl
  have i1 : (i 1).val = win0_7.index t (1 : Fin 4) * 128 + 1 * ch.val := by rw [← hi]; rfl
  have i2 : (i 2).val = win0_7.index t (2 : Fin 4) * 64 + 1 * fl.val := by rw [← hi]; rfl
  have i3 : (i 3).val = win0_7.index t (3 : Fin 4) * 128 + 1 * u.val := by rw [← hi]; rfl
  show ChanAttn.blockAt (iblk m c 0 t) (iblk m c 1 t) (iblk m c 2 t) (iblk m c 3 t) (iblk m c 4 t) (iblk m c 5 t) (iblk m c 6 t) ch fl u
      = ChanAttn.wholeAt (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (i 0) (i 1) (i 2) (i 3)
  have hch : (i 1 : Fin 128) = ch := Fin.ext (by rw [i1, e71]; omega)
  have hu : (i 3 : Fin 128) = u := Fin.ext (by rw [i3, e73]; omega)
  -- the input block's slice at bin `fl` is the input's slice at (i 0, i 2)
  have h0 : (fun ch' t' => iblk m c 0 t (ix4 0 ch' fl t')) = fun ch' t' => (m ((c : Thread nD τ).loc main_arg0)) (ix4 (i 0) ch' (i 2) t') := by
    funext ch' t'
    show V m c main_arg0 (((cfg0.win 0).blk t).view.emb (ix4 (0 : Fin 1) ch' fl t' : S1x128x64x128.Idx)) = _
    rw [V_main_arg0]
    refine congrArg _ (funext fun a => Fin.ext ?_)
    match a with
    | ⟨0, _⟩ => show win0_0.index t (0 : Fin 4) * 1 + 1 * 0 = (i 0).val; rw [i0, e00, hu0]
    | ⟨1, _⟩ => show win0_0.index t (1 : Fin 4) * 128 + 1 * ch'.val = ch'.val; rw [e01]; omega
    | ⟨2, _⟩ => show win0_0.index t (2 : Fin 4) * 64 + 1 * fl.val = (i 2).val; rw [i2, e02]
    | ⟨3, _⟩ => show win0_0.index t (3 : Fin 4) * 128 + 1 * t'.val = t'.val; rw [e03]; omega
  -- the weights are handed whole, transposed
  have h1 : (fun d t' => iblk m c 1 t (ix2 t' d)) = fun (d : Fin 32) (t' : Fin 128) => (m ((c : Thread nD τ).loc main_arg1)) (ix2 d t') := by
    funext d t'
    show V m c main_v0 (((cfg0.win 1).blk t).view.emb (ix2 t' d : S128x32.Idx)) = _
    rw [V_main_v0]
    refine (whole2_apply _ _ _ _ e10 e11 (ix2 t' d) fun a => match a with | ⟨0, _⟩ => rfl | ⟨1, _⟩ => rfl).trans ?_
    exact transpose_ix2_apply (m ((c : Thread nD τ).loc main_arg1)) transposes_S32x128_S128x32_1_0 t' d
  have h3 : (fun d t' => iblk m c 3 t (ix2 t' d)) = fun (d : Fin 32) (t' : Fin 128) => (m ((c : Thread nD τ).loc main_arg3)) (ix2 d t') := by
    funext d t'
    show V m c main_v1 (((cfg0.win 3).blk t).view.emb (ix2 t' d : S128x32.Idx)) = _
    rw [V_main_v1]
    refine (whole2_apply _ _ _ _ e30 e31 (ix2 t' d) fun a => match a with | ⟨0, _⟩ => rfl | ⟨1, _⟩ => rfl).trans ?_
    exact transpose_ix2_apply (m ((c : Thread nD τ).loc main_arg3)) transposes_S32x128_S128x32_1_0 t' d
  have h5 : (fun v t' => iblk m c 5 t (ix2 t' v)) = fun (v : Fin 128) (t' : Fin 128) => (m ((c : Thread nD τ).loc main_arg5)) (ix2 v t') := by
    funext v t'
    show V m c main_v2 (((cfg0.win 5).blk t).view.emb (ix2 t' v : S128x128.Idx)) = _
    rw [V_main_v2]
    refine (whole2_apply _ _ _ _ e50 e51 (ix2 t' v) fun a => match a with | ⟨0, _⟩ => rfl | ⟨1, _⟩ => rfl).trans ?_
    exact transpose_ix2_apply (m ((c : Thread nD τ).loc main_arg5)) transposes_S128x128_S128x128_1_0 t' v
  -- the biases are handed whole
  have h2 : (fun d => iblk m c 2 t (ix1 d)) = fun (d : Fin 32) => (m ((c : Thread nD τ).loc main_arg2)) (ix1 d) := by
    funext d
    show V m c main_arg2 (((cfg0.win 2).blk t).view.emb (ix1 d : S32.Idx)) = _
    rw [V_main_arg2]
    exact whole1_apply _ _ _ e20 (ix1 d) fun a => match a with | ⟨0, _⟩ => rfl
  have h4 : (fun d => iblk m c 4 t (ix1 d)) = fun (d : Fin 32) => (m ((c : Thread nD τ).loc main_arg4)) (ix1 d) := by
    funext d
    show V m c main_arg4 (((cfg0.win 4).blk t).view.emb (ix1 d : S32.Idx)) = _
    rw [V_main_arg4]
    exact whole1_apply _ _ _ e40 (ix1 d) fun a => match a with | ⟨0, _⟩ => rfl
  have h6 : (fun v => iblk m c 6 t (ix1 v)) = fun (v : Fin 128) => (m ((c : Thread nD τ).loc main_arg6)) (ix1 v) := by
    funext v
    show V m c main_arg6 (((cfg0.win 6).blk t).view.emb (ix1 v : S128.Idx)) = _
    rw [V_main_arg6]
    exact whole1_apply _ _ _ e60 (ix1 v) fun a => match a with | ⟨0, _⟩ => rfl
  unfold ChanAttn.blockAt ChanAttn.wholeAt
  rw [h0, h1, h2, h3, h4, h5, h6, hch, hu]

/-! ## The blocks tile the array -/

/-- An entry of the array is in point `t`'s block iff each coordinate is in the block's range on its axis. -/
theorem mem_blk (t : Fin cfg0.N) (i : S8x128x256x128.Idx) :
    i ∈ ((cfg0.win 7).blk t).view.set ↔ ∀ a : Fin 4, win0_7.index t a * S1x128x64x128.size a ≤ (i a).val
      ∧ (i a).val < win0_7.index t a * S1x128x64x128.size a + S1x128x64x128.size a := by
  show i ∈ ((View.whole main_v3).slice (win0_7.rect t)).set ↔ _
  rw [View.set_slice_whole, Rect.mem_set_unit]
  exact Iff.rfl

/-- Every entry (b, ch, f, t) is in the block of the point that has batch entry `b` and bin block `f / 64`. -/
theorem cover (i : S8x128x256x128.Idx) : ∃ t : Fin cfg0.N, (cfg0.win 7).flush t = true ∧ i ∈ ((cfg0.win 7).blk t).view.set := by
  have hi0 : (i 0).val < 8 := (i 0).isLt
  have hi1 : (i 1).val < 128 := (i 1).isLt
  have hi2 : (i 2).val < 256 := (i 2).isLt
  have hi3 : (i 3).val < 128 := (i 3).isLt
  obtain ⟨t, ht⟩ := idx_onto ⟨(i 0).val, hi0⟩ ⟨(i 2).val / 64, by omega⟩
  have q0 : win0_7.index t (0 : Fin 4) = (i 0).val := congrFun ht 0
  have q1 : win0_7.index t (1 : Fin 4) = 0 := congrFun ht 1
  have q2 : win0_7.index t (2 : Fin 4) = (i 2).val / 64 := congrFun ht 2
  have q3 : win0_7.index t (3 : Fin 4) = 0 := congrFun ht 3
  refine ⟨t, flush0_7 t, ?_⟩
  rw [mem_blk]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 128 ≤ (i 1).val ∧ (i 1).val < win0_7.index t (1 : Fin 4) * 128 + 128; omega
  | ⟨2, _⟩ => show win0_7.index t (2 : Fin 4) * 64 ≤ (i 2).val ∧ (i 2).val < win0_7.index t (2 : Fin 4) * 64 + 64; omega
  | ⟨3, _⟩ => show win0_7.index t (3 : Fin 4) * 128 ≤ (i 3).val ∧ (i 3).val < win0_7.index t (3 : Fin 4) * 128 + 128; omega

/-- THE ARRAY after the run is the whole-array function of the argument arrays. -/
theorem final (c : Dev nD) : (dats m 0 c).arrAt 7 cfg0.N = result m c :=
  (dats m 0 c).arrAt_eq_of_cover 7 (result m c) (fun t _ => flushed_eq m c t) cover

/-! ## The run, read -/

/-- Every weakly fair execution of the idealized kernel terminates with the result array at the specification's whole
    array of the arguments as launched, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.KernelIdeal.Whole

end
-- ==== Proof.RefSoftmax.lean ====
/-
  The reference's softmax over the channel axis, as one function of its logits, read at an entry.

  The reference takes, for a `[8, 256, 64, 64]` array of logits (batch, bin, channel `c`, column `e`), the maximum over `c` from
  −∞ (met with −∞ once more), subtracts it, exponentiates, sums over `c` from zero and divides. At (b, f, c, e) that is the
  max-shifted softmax weight of entry `c` in the column `k ↦ p (b, f, k, e)`. The same function is applied to the real and to
  the imaginary logits.
-/
import proofs.«180189_j62723702391454_2_alg».proof.Proof.Gen.ReferenceIdeal
import proofs.«180189_j62723702391454_2_alg».proof.Proof.AttnSpec
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen
open Idealize.ShloMosaic Idealize.ShloMosaic.ValueIdx

/-- Two indices given coordinate by coordinate agree when every coordinate computes to the same number. -/
macro "idx_rfl1" : tactic => `(tactic| (funext a; apply Fin.ext; match a with | ⟨0, _⟩ => rfl))
macro "idx_rfl2" : tactic => `(tactic| (funext a; apply Fin.ext; match a with | ⟨0, _⟩ => rfl | ⟨1, _⟩ => rfl))
macro "idx_rfl3" : tactic => `(tactic| (funext a; apply Fin.ext; match a with | ⟨0, _⟩ => rfl | ⟨1, _⟩ => rfl | ⟨2, _⟩ => rfl))
macro "idx_rfl4" : tactic => `(tactic| (funext a; apply Fin.ext; match a with | ⟨0, _⟩ => rfl | ⟨1, _⟩ => rfl | ⟨2, _⟩ => rfl | ⟨3, _⟩ => rfl))

/-- Every channel is the real row or the imaginary row of one complex channel. -/
theorem re_or_im (ch : Fin 128) : (∃ e : Fin 64, ch = ChanAttn.re e) ∨ (∃ e : Fin 64, ch = ChanAttn.im e) := by
  by_cases h : ch.val < 64
  · exact .inl ⟨⟨ch.val, h⟩, Fin.ext rfl⟩
  · exact .inr ⟨⟨ch.val - 64, by have := ch.isLt; omega⟩, Fin.ext (by show ch.val = 64 + (ch.val - 64); omega)⟩

/-! ## The host softmax over the channel axis, as one function of the logits -/

/-- A `[8, 256, 64]` array given back its channel axis: entry (b, f, c, e) is entry (b, f, e). -/
def keep (v : FVec Ideal S8x256x64 .f32) : FVec Ideal S8x256x64x64 .f32 :=
  broadcastInDim S8x256x64x64 ![0, 1, 2, 3] bcast_S8x256x1x64_S8x256x64x64_0_1_2_3
    (broadcastInDim S8x256x1x64 ![0, 1, 3] bcast_S8x256x64_S8x256x1x64_0_1_3 v)

theorem keep_apply (v : FVec Ideal S8x256x64 .f32) (b : Fin 8) (f : Fin 256) (c e : Fin 64) :
    keep v (ix4 b f c e) = v (ix3 b f e) := by
  unfold keep
  refine (broadcastInDim_apply _ bcast_S8x256x1x64_S8x256x64x64_0_1_2_3 _ (ix4 b f c e) (ix4 b f (0 : Fin 1) e) fun a => ?_).trans ?_
  · match a with
    | ⟨0, _⟩ => show b.val = if (8 : Nat) = 1 then 0 else b.val; rw [if_neg (by decide)]
    | ⟨1, _⟩ => show f.val = if (256 : Nat) = 1 then 0 else f.val; rw [if_neg (by decide)]
    | ⟨2, _⟩ => show 0 = if (1 : Nat) = 1 then 0 else c.val; rw [if_pos rfl]
    | ⟨3, _⟩ => show e.val = if (64 : Nat) = 1 then 0 else e.val; rw [if_neg (by decide)]
  · exact broadcastInDim_apply _ bcast_S8x256x64_S8x256x1x64_0_1_3 v (ix4 b f (0 : Fin 1) e) (ix3 b f e) fun a => match a with
      | ⟨0, _⟩ => by show b.val = if (8 : Nat) = 1 then 0 else b.val; rw [if_neg (by decide)]
      | ⟨1, _⟩ => by show f.val = if (256 : Nat) = 1 then 0 else f.val; rw [if_neg (by decide)]
      | ⟨2, _⟩ => by show e.val = if (64 : Nat) = 1 then 0 else e.val; rw [if_neg (by decide)]

theorem reducesMid : S8x256x64x64.Reduces [2] S8x256x64 := by decide

/-- The reduced index (b, f, e) with channel `k` put back is (b, f, k, e). -/
theorem lift_mid (b : Fin 8) (f : Fin 256) (e k : Fin 64) : reducesMid.lift (ix3 b f e) k = ix4 b f k e := by idx_rfl4

/-- The column maxima, taken from −∞ and met with −∞ once more. -/
def hostColMax (p : FVec Ideal S8x256x64x64 .f32) : FVec Ideal S8x256x64 .f32 :=
  maximumf (broadcastInDim S8x256x64 ![] bcast_S_S8x256x64 (constant (F := Ideal) S_ .f32 0xFF800000#32))
    (Host.reduce (FloatOps.maximumf (F := Ideal) (φ := .f32)) p (constant (F := Ideal) S_ .f32 0xFF800000#32) reducesTo_S8x256x64x64_S8x256x64_d2 h_S_)

theorem hostColMax_apply (p : FVec Ideal S8x256x64x64 .f32) (b : Fin 8) (f : Fin 256) (e : Fin 64) :
    hostColMax p (ix3 b f e) = ChanAttn.colMax (fun k => p (ix4 b f k e)) := by
  have h1 : broadcastInDim S8x256x64 ![] bcast_S_S8x256x64 (constant (F := Ideal) S_ .f32 0xFF800000#32) (ix3 b f e)
      = Ideal.ofBits .f32 0xFF800000#32 :=
    (broadcastInDim_apply _ bcast_S_S8x256x64 (constant (F := Ideal) S_ .f32 0xFF800000#32) (ix3 b f e) ix0
      (fun a => a.elim0)).trans (constant_apply _ _)
  have h2 : Host.reduce (FloatOps.maximumf (F := Ideal) (φ := .f32)) p (constant (F := Ideal) S_ .f32 0xFF800000#32) reducesTo_S8x256x64x64_S8x256x64_d2 h_S_ (ix3 b f e)
      = (Finset.univ : Finset (Fin 64)).fold max (Ideal.ofBits .f32 0xFF800000#32) (fun k => p (ix4 b f k e)) := by
    refine (Host.reduce_eq_fold_single (FloatOps.maximumf (F := Ideal) (φ := .f32)) p _ reducesTo_S8x256x64x64_S8x256x64_d2 reducesMid h_S_ (ix3 b f e)).trans ?_
    rw [constant_apply]
    exact congrArg (fun g => (Finset.univ : Finset (Fin 64)).fold max (Ideal.ofBits .f32 0xFF800000#32) g)
      (funext fun k => congrArg p (lift_mid b f e k))
  unfold hostColMax ChanAttn.colMax
  rw [maximumf_apply, h1, h2]

/-- The exponentials of the max-shifted logits. -/
def hostShifted (p : FVec Ideal S8x256x64x64 .f32) : FVec Ideal S8x256x64x64 .f32 := Host.exp (subf p (keep (hostColMax p)))

theorem hostShifted_apply (p : FVec Ideal S8x256x64x64 .f32) (b : Fin 8) (f : Fin 256) (c e : Fin 64) :
    hostShifted p (ix4 b f c e) = Ideal.exp (p (ix4 b f c e) - ChanAttn.colMax (fun k => p (ix4 b f k e))) := by
  unfold hostShifted
  exact congrArg (fun z => Ideal.exp (p (ix4 b f c e) - z)) ((keep_apply _ b f c e).trans (hostColMax_apply p b f e))

/-- The column sums of an array, from zero. -/
theorem hostSumMid_apply (x : FVec Ideal S8x256x64x64 .f32) (b : Fin 8) (f : Fin 256) (e : Fin 64) :
    Host.reduceAdd x (constant (F := Ideal) S_ .f32 0x00000000#32) reducesTo_S8x256x64x64_S8x256x64_d2 h_S_ (ix3 b f e)
      = ∑ k : Fin 64, x (ix4 b f k e) := by
  simp only [Host.reduceAdd, Ideal.hostReduceAdd_def]
  rw [Ideal.hostReduceAdd_single reducesTo_S8x256x64x64_S8x256x64_d2 reducesMid]
  rw [constant_apply, Ideal.ofBits_zero_f32, zero_add]
  exact Finset.sum_congr rfl fun k _ => congrArg x (lift_mid b f e k)

/-- The softmax: each shifted exponential over its column's sum. -/
def hostSoftmax (p : FVec Ideal S8x256x64x64 .f32) : FVec Ideal S8x256x64x64 .f32 :=
  Host.divf (hostShifted p)
    (keep (Host.reduceAdd (hostShifted p) (constant (F := Ideal) S_ .f32 0x00000000#32) reducesTo_S8x256x64x64_S8x256x64_d2 h_S_))

theorem hostSoftmax_apply (p : FVec Ideal S8x256x64x64 .f32) (b : Fin 8) (f : Fin 256) (c e : Fin 64) :
    hostSoftmax p (ix4 b f c e) = ChanAttn.softCol (fun k => p (ix4 b f k e)) c := by
  unfold hostSoftmax ChanAttn.softCol
  refine congrArg₂ Ideal.div (hostShifted_apply p b f c e) ?_
  refine (keep_apply _ b f c e).trans ?_
  refine (hostSumMid_apply (hostShifted p) b f e).trans ?_
  exact Finset.sum_congr rfl fun k _ => hostShifted_apply p b f k e

end Cert.ReferenceIdeal.Stages

end
-- ==== Proof.RefStages.lean ====
/-
  The reference, stage by stage, is the specification.

  The reference slices the input into its real and imaginary channel halves, projects each with the weights as given
  (`Σ_t w d t · x b c f t + bias d`, laid out as (b, f, d, c)), forms the complex logits, takes a softmax over the channel axis of the
  real and of the imaginary logits separately, multiplies the values into the weights (`Σ_c v t c · w c e`), moves the
  channel axis back to second place and joins real and imaginary parts along it. Each stage read at an entry is a function of
  the specification; the only rearrangements are the order of the two factors in the projections and in the last products.
-/
import proofs.«180189_j62723702391454_2_alg».proof.Proof.RefReadPatched
import proofs.«180189_j62723702391454_2_alg».proof.Proof.AttnSpec
import proofs.«180189_j62723702391454_2_alg».proof.Proof.RefSoftmax

noncomputable section

namespace Cert.ReferenceIdeal.Stages

open Cert.ReferenceIdeal Cert.ReferenceIdeal.Gen Cert.ReferenceIdeal.ReadP
open Idealize.ShloMosaic Idealize.ShloMosaic.ValueIdx

section Stages

variable (x0 : (⟨S8x128x256x128, .f32⟩ : BufTy).Contents (Elt Ideal)) (x1 : (⟨S32x128, .f32⟩ : BufTy).Contents (Elt Ideal)) (x2 : (⟨S32, .f32⟩ : BufTy).Contents (Elt Ideal)) (x3 : (⟨S32x128, .f32⟩ : BufTy).Contents (Elt Ideal)) (x4 : (⟨S32, .f32⟩ : BufTy).Contents (Elt Ideal))
  (x5 : (⟨S128x128, .f32⟩ : BufTy).Contents (Elt Ideal)) (x6 : (⟨S128, .f32⟩ : BufTy).Contents (Elt Ideal))

/-! ## The specification's arguments, read off the argument arrays -/

/-- The input's slice at batch entry `b` and bin `f`: channel, time. -/
abbrev Xr (b : Fin 8) (f : Fin 256) : Fin 128 → Fin 128 → EReal := fun ch t => x0 (ix4 b ch f t)
abbrev Wr (w : (⟨S32x128, .f32⟩ : BufTy).Contents (Elt Ideal)) : Fin 32 → Fin 128 → EReal := fun d t => w (ix2 d t)
abbrev Br (v : (⟨S32, .f32⟩ : BufTy).Contents (Elt Ideal)) : Fin 32 → EReal := fun d => v (ix1 d)
abbrev Wvr : Fin 128 → Fin 128 → EReal := fun u t => x5 (ix2 u t)
abbrev Bvr : Fin 128 → EReal := fun u => x6 (ix1 u)

/-! ## The six projections -/

/-- Keys of the real rows. -/
theorem keysR_apply (b : Fin 8) (f : Fin 256) (d : Fin 32) (c : Fin 64) :
    val_main_v6 (F := Ideal) x0 x1 x2 (ix4 b f d c) = ChanAttn.kR (Xr x0 b f) (Wr x1) (Br x2) c d := by
  rw [val_main_v6_apply, val_main_v3_apply, val_main_v2_apply, val_main_v5_apply, val_main_v4_apply]
  unfold ChanAttn.kR ChanAttn.proj
  refine congrArg₂ (· + ·) (Finset.sum_congr rfl fun k _ => ?_) (congrArg x2 (by idx_rfl1))
  rw [val_main_v0_apply, mul_comm]
  exact congrArg₂ (· * ·) (congrArg x0 (by idx_rfl4)) (congrArg x1 (by idx_rfl2))

/-- Keys of the imaginary rows. -/
theorem keysI_apply (b : Fin 8) (f : Fin 256) (d : Fin 32) (c : Fin 64) :
    val_main_v11 (F := Ideal) x0 x1 x2 (ix4 b f d c) = ChanAttn.kI (Xr x0 b f) (Wr x1) (Br x2) c d := by
  rw [val_main_v11_apply, val_main_v8_apply, val_main_v7_apply, val_main_v10_apply, val_main_v9_apply]
  unfold ChanAttn.kI ChanAttn.proj
  refine congrArg₂ (· + ·) (Finset.sum_congr rfl fun k _ => ?_) (congrArg x2 (by idx_rfl1))
  rw [val_main_v1_apply, mul_comm]
  exact congrArg₂ (· * ·) (congrArg x0 (by idx_rfl4)) (congrArg x1 (by idx_rfl2))

/-- Queries of the real rows. -/
theorem queriesR_apply (b : Fin 8) (f : Fin 256) (d : Fin 32) (c : Fin 64) :
    val_main_v16 (F := Ideal) x0 x3 x4 (ix4 b f d c) = ChanAttn.qR (Xr x0 b f) (Wr x3) (Br x4) c d := by
  rw [val_main_v16_apply, val_main_v13_apply, val_main_v12_apply, val_main_v15_apply, val_main_v14_apply]
  unfold ChanAttn.qR ChanAttn.proj
  refine congrArg₂ (· + ·) (Finset.sum_congr rfl fun k _ => ?_) (congrArg x4 (by idx_rfl1))
  rw [val_main_v0_apply, mul_comm]
  exact congrArg₂ (· * ·) (congrArg x0 (by idx_rfl4)) (congrArg x3 (by idx_rfl2))

/-- Queries of the imaginary rows. -/
theorem queriesI_apply (b : Fin 8) (f : Fin 256) (d : Fin 32) (c : Fin 64) :
    val_main_v21 (F := Ideal) x0 x3 x4 (ix4 b f d c) = ChanAttn.qI (Xr x0 b f) (Wr x3) (Br x4) c d := by
  rw [val_main_v21_apply, val_main_v18_apply, val_main_v17_apply, val_main_v20_apply, val_main_v19_apply]
  unfold ChanAttn.qI ChanAttn.proj
  refine congrArg₂ (· + ·) (Finset.sum_congr rfl fun k _ => ?_) (congrArg x4 (by idx_rfl1))
  rw [val_main_v1_apply, mul_comm]
  exact congrArg₂ (· * ·) (congrArg x0 (by idx_rfl4)) (congrArg x3 (by idx_rfl2))

/-- Values of the real rows. -/
theorem valuesR_apply (b : Fin 8) (f : Fin 256) (d : Fin 128) (c : Fin 64) :
    val_main_v26 (F := Ideal) x0 x5 x6 (ix4 b f d c) = ChanAttn.vR (Xr x0 b f) (Wvr x5) (Bvr x6) c d := by
  rw [val_main_v26_apply, val_main_v23_apply, val_main_v22_apply, val_main_v25_apply, val_main_v24_apply]
  unfold ChanAttn.vR ChanAttn.proj
  refine congrArg₂ (· + ·) (Finset.sum_congr rfl fun k _ => ?_) (congrArg x6 (by idx_rfl1))
  rw [val_main_v0_apply, mul_comm]
  exact congrArg₂ (· * ·) (congrArg x0 (by idx_rfl4)) (congrArg x5 (by idx_rfl2))

/-- Values of the imaginary rows. -/
theorem valuesI_apply (b : Fin 8) (f : Fin 256) (d : Fin 128) (c : Fin 64) :
    val_main_v31 (F := Ideal) x0 x5 x6 (ix4 b f d c) = ChanAttn.vI (Xr x0 b f) (Wvr x5) (Bvr x6) c d := by
  rw [val_main_v31_apply, val_main_v28_apply, val_main_v27_apply, val_main_v30_apply, val_main_v29_apply]
  unfold ChanAttn.vI ChanAttn.proj
  refine congrArg₂ (· + ·) (Finset.sum_congr rfl fun k _ => ?_) (congrArg x6 (by idx_rfl1))
  rw [val_main_v1_apply, mul_comm]
  exact congrArg₂ (· * ·) (congrArg x0 (by idx_rfl4)) (congrArg x5 (by idx_rfl2))

/-! ## The logits and the softmax weights -/

/-- Real logits: `Σ_d kR c d · qR e d − Σ_d kI c d · qI e d`. -/
theorem logitsR_apply (b : Fin 8) (f : Fin 256) (c e : Fin 64) :
    val_main_v34 (F := Ideal) x0 x1 x2 x3 x4 (ix4 b f c e) = ChanAttn.pR (Xr x0 b f) (Wr x1) (Wr x3) (Br x2) (Br x4) c e := by
  rw [val_main_v34_apply, val_main_v32_apply, val_main_v33_apply]
  unfold ChanAttn.pR
  refine congrArg₂ (· - ·) (Finset.sum_congr rfl fun k _ => ?_) (Finset.sum_congr rfl fun k _ => ?_)
  · exact congrArg₂ (· * ·)
      ((congrArg (val_main_v6 (F := Ideal) x0 x1 x2) (by idx_rfl4)).trans (keysR_apply x0 x1 x2 b f k c))
      ((congrArg (val_main_v16 (F := Ideal) x0 x3 x4) (by idx_rfl4)).trans (queriesR_apply x0 x3 x4 b f k e))
  · exact congrArg₂ (· * ·)
      ((congrArg (val_main_v11 (F := Ideal) x0 x1 x2) (by idx_rfl4)).trans (keysI_apply x0 x1 x2 b f k c))
      ((congrArg (val_main_v21 (F := Ideal) x0 x3 x4) (by idx_rfl4)).trans (queriesI_apply x0 x3 x4 b f k e))

/-- Imaginary logits: `Σ_d kR c d · qI e d + Σ_d kI c d · qR e d`. -/
theorem logitsI_apply (b : Fin 8) (f : Fin 256) (c e : Fin 64) :
    val_main_v37 (F := Ideal) x0 x1 x2 x3 x4 (ix4 b f c e) = ChanAttn.pI (Xr x0 b f) (Wr x1) (Wr x3) (Br x2) (Br x4) c e := by
  rw [val_main_v37_apply, val_main_v35_apply, val_main_v36_apply]
  unfold ChanAttn.pI
  refine congrArg₂ (· + ·) (Finset.sum_congr rfl fun k _ => ?_) (Finset.sum_congr rfl fun k _ => ?_)
  · exact congrArg₂ (· * ·)
      ((congrArg (val_main_v6 (F := Ideal) x0 x1 x2) (by idx_rfl4)).trans (keysR_apply x0 x1 x2 b f k c))
      ((congrArg (val_main_v21 (F := Ideal) x0 x3 x4) (by idx_rfl4)).trans (queriesI_apply x0 x3 x4 b f k e))
  · exact congrArg₂ (· * ·)
      ((congrArg (val_main_v11 (F := Ideal) x0 x1 x2) (by idx_rfl4)).trans (keysI_apply x0 x1 x2 b f k c))
      ((congrArg (val_main_v16 (F := Ideal) x0 x3 x4) (by idx_rfl4)).trans (queriesR_apply x0 x3 x4 b f k e))

theorem v48_eq : val_main_v48 (F := Ideal) x0 x1 x2 x3 x4 = hostSoftmax (val_main_v34 (F := Ideal) x0 x1 x2 x3 x4) := rfl
theorem v59_eq : val_main_v59 (F := Ideal) x0 x1 x2 x3 x4 = hostSoftmax (val_main_v37 (F := Ideal) x0 x1 x2 x3 x4) := rfl

theorem weightsR_apply (b : Fin 8) (f : Fin 256) (c e : Fin 64) :
    val_main_v48 (F := Ideal) x0 x1 x2 x3 x4 (ix4 b f c e) = ChanAttn.wR (Xr x0 b f) (Wr x1) (Wr x3) (Br x2) (Br x4) c e := by
  refine (congrFun (v48_eq x0 x1 x2 x3 x4) _).trans ?_
  refine (hostSoftmax_apply _ b f c e).trans ?_
  unfold ChanAttn.wR
  exact congrArg (fun p => ChanAttn.softCol p c) (funext fun k => logitsR_apply x0 x1 x2 x3 x4 b f k e)

theorem weightsI_apply (b : Fin 8) (f : Fin 256) (c e : Fin 64) :
    val_main_v59 (F := Ideal) x0 x1 x2 x3 x4 (ix4 b f c e) = ChanAttn.wI (Xr x0 b f) (Wr x1) (Wr x3) (Br x2) (Br x4) c e := by
  refine (congrFun (v59_eq x0 x1 x2 x3 x4) _).trans ?_
  refine (hostSoftmax_apply _ b f c e).trans ?_
  unfold ChanAttn.wI
  exact congrArg (fun p => ChanAttn.softCol p c) (funext fun k => logitsI_apply x0 x1 x2 x3 x4 b f k e)

/-! ## The output products (values on the left here, weights on the left in the specification) -/

theorem outR_apply (b : Fin 8) (f : Fin 256) (u : Fin 128) (e : Fin 64) :
    val_main_v62 (F := Ideal) x0 x1 x2 x3 x4 x5 x6 (ix4 b f u e)
      = ChanAttn.oR (Xr x0 b f) (Wr x1) (Wr x3) (Br x2) (Br x4) (Wvr x5) (Bvr x6) e u := by
  rw [val_main_v62_apply, val_main_v60_apply, val_main_v61_apply]
  unfold ChanAttn.oR
  refine congrArg₂ (· - ·) (Finset.sum_congr rfl fun k _ => ?_) (Finset.sum_congr rfl fun k _ => ?_)
  · rw [mul_comm]
    exact congrArg₂ (· * ·)
      ((congrArg (val_main_v48 (F := Ideal) x0 x1 x2 x3 x4) (by idx_rfl4)).trans (weightsR_apply x0 x1 x2 x3 x4 b f k e))
      ((congrArg (val_main_v26 (F := Ideal) x0 x5 x6) (by idx_rfl4)).trans (valuesR_apply x0 x5 x6 b f u k))
  · rw [mul_comm]
    exact congrArg₂ (· * ·)
      ((congrArg (val_main_v59 (F := Ideal) x0 x1 x2 x3 x4) (by idx_rfl4)).trans (weightsI_apply x0 x1 x2 x3 x4 b f k e))
      ((congrArg (val_main_v31 (F := Ideal) x0 x5 x6) (by idx_rfl4)).trans (valuesI_apply x0 x5 x6 b f u k))

theorem outI_apply (b : Fin 8) (f : Fin 256) (u : Fin 128) (e : Fin 64) :
    val_main_v65 (F := Ideal) x0 x1 x2 x3 x4 x5 x6 (ix4 b f u e)
      = ChanAttn.oI (Xr x0 b f) (Wr x1) (Wr x3) (Br x2) (Br x4) (Wvr x5) (Bvr x6) e u := by
  rw [val_main_v65_apply, val_main_v63_apply, val_main_v64_apply]
  unfold ChanAttn.oI
  refine congrArg₂ (· + ·) (Finset.sum_congr rfl fun k _ => ?_) (Finset.sum_congr rfl fun k _ => ?_)
  · rw [mul_comm]
    exact congrArg₂ (· * ·)
      ((congrArg (val_main_v59 (F := Ideal) x0 x1 x2 x3 x4) (by idx_rfl4)).trans (weightsI_apply x0 x1 x2 x3 x4 b f k e))
      ((congrArg (val_main_v26 (F := Ideal) x0 x5 x6) (by idx_rfl4)).trans (valuesR_apply x0 x5 x6 b f u k))
  · rw [mul_comm]
    exact congrArg₂ (· * ·)
      ((congrArg (val_main_v48 (F := Ideal) x0 x1 x2 x3 x4) (by idx_rfl4)).trans (weightsR_apply x0 x1 x2 x3 x4 b f k e))
      ((congrArg (val_main_v31 (F := Ideal) x0 x5 x6) (by idx_rfl4)).trans (valuesI_apply x0 x5 x6 b f u k))

/-! ## The result -/

/-- The reference's result array is the specification's whole array. -/
theorem result_eq : val_main_v68 (F := Ideal) x0 x1 x2 x3 x4 x5 x6 = ChanAttn.whole x0 x1 x2 x3 x4 x5 x6 := by
  funext i
  obtain ⟨b, ch, f, u, rfl⟩ : ∃ (b : Fin 8) (ch : Fin 128) (f : Fin 256) (u : Fin 128), i = ix4 b ch f u :=
    ⟨i 0, i 1, i 2, i 3, eq_ix4 i⟩
  show _ = ChanAttn.out (Xr x0 b f) (Wr x1) (Wr x3) (Br x2) (Br x4) (Wvr x5) (Bvr x6) ch u
  unfold val_main_v68
  rcases re_or_im ch with ⟨e, rfl⟩ | ⟨e, rfl⟩
  · refine (concatenate_pair_apply_left 1 _ _ concatenates_S8x64x256x128_S8x64x256x128_S8x128x256x128_d1
      (ix4 b (ChanAttn.re e) f u) rfl (ix4 b e f u) fun a => match a with
        | ⟨0, _⟩ => rfl | ⟨1, _⟩ => rfl | ⟨2, _⟩ => rfl | ⟨3, _⟩ => rfl).trans ?_
    rw [ChanAttn.out_re, val_main_v66_apply]
    exact (congrArg (val_main_v62 (F := Ideal) x0 x1 x2 x3 x4 x5 x6) (by idx_rfl4)).trans (outR_apply x0 x1 x2 x3 x4 x5 x6 b f u e)
  · refine (concatenate_pair_apply_right 1 _ _ concatenates_S8x64x256x128_S8x64x256x128_S8x128x256x128_d1
      (ix4 b (ChanAttn.im e) f u) rfl rfl (ix4 b e f u)
      (fun a ha => match a, ha with
        | ⟨0, _⟩, _ => rfl | ⟨1, _⟩, ha => absurd rfl ha | ⟨2, _⟩, _ => rfl | ⟨3, _⟩, _ => rfl)
      (by show e.val + 64 = 64 + e.val; omega)).trans ?_
    rw [ChanAttn.out_im, val_main_v67_apply]
    exact (congrArg (val_main_v65 (F := Ideal) x0 x1 x2 x3 x4 x5 x6) (by idx_rfl4)).trans (outI_apply x0 x1 x2 x3 x4 x5 x6 b f u e)

end Stages

end Cert.ReferenceIdeal.Stages

end
-- ==== Proof.lean ====
/-
  The claim, assembled: complex channel attention as a kernel against its plain reference.

  Both programs take `x : [8, 128, 256, 128]` (batch, channel, frequency bin, time; channels 0 … 63 the real parts and
  64 … 127 the imaginary parts of 64 complex channels) with weights `Wk Wq : [32, 128]`, `Wv : [128, 128]` and biases, and
  compute, independently for every batch entry and bin: the projections of the time axis `k q v`, the complex products
  `P = Σ_d k·q` (no conjugate), a softmax of the real and of the imaginary parts of `P` down the channel axis, and the
  complex product `o = Σ_c w·v`, real parts to channels 0 … 63 and imaginary parts to 64 … 127.

  On the extended reals the kernel's result array is that function of the argument arrays (its grid blocks tile the array, and
  each block is the function of the input's block), and so is the reference's, stage by stage. The two sides differ only in
  the order of the two factors inside the projections and the last products, and multiplication of extended reals commutes;
  no entry needs to be finite, so the precondition is never opened. The ideal pass rewrote nothing, so the idealized kernel is
  the kernel's own text and that conjunct is trivial. The three frames are the generated frame runs, the reference's with its
  result dropped.
-/
import proofs.«180189_j62723702391454_2_alg».proof.Defs
import proofs.«180189_j62723702391454_2_alg».proof.Proof.Gen.Kernel
import proofs.«180189_j62723702391454_2_alg».proof.Proof.Gen.Kernel.Skeleton
import proofs.«180189_j62723702391454_2_alg».proof.Proof.Gen.Kernel.Launch
import proofs.«180189_j62723702391454_2_alg».proof.Proof.Gen.Kernel.Points
import proofs.«180189_j62723702391454_2_alg».proof.Proof.Gen.Kernel.Frame
import proofs.«180189_j62723702391454_2_alg».proof.Proof.Gen.KernelIdeal
import proofs.«180189_j62723702391454_2_alg».proof.Proof.Gen.KernelIdeal.Skeleton
import proofs.«180189_j62723702391454_2_alg».proof.Proof.Gen.KernelIdeal.Launch
import proofs.«180189_j62723702391454_2_alg».proof.Proof.Gen.KernelIdeal.Points
import proofs.«180189_j62723702391454_2_alg».proof.Proof.Gen.KernelIdeal.Frame
import proofs.«180189_j62723702391454_2_alg».proof.Proof.Gen.ReferenceIdeal
import proofs.«180189_j62723702391454_2_alg».proof.Proof.Gen.Pre_finite_inputs
import proofs.«180189_j62723702391454_2_alg».proof.Proof.Gen.KernelIdeal.Value
import proofs.«180189_j62723702391454_2_alg».proof.Proof.RefRunPatched
import proofs.«180189_j62723702391454_2_alg».proof.Proof.RefReadPatched
import proofs.«180189_j62723702391454_2_alg».proof.Proof.KernelWhole
import proofs.«180189_j62723702391454_2_alg».proof.Proof.RefStages
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the arguments, both idealized programs end with the result array at the whole-array function
    of the arguments: the kernel's by its blocks, the reference's stage by stage. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v68_eq, Cert.ReferenceIdeal.Stages.result_eq]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
